-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S2x2048 : Shape := ⟨2, ![2, 2048]⟩
abbrev S4096x11008 : Shape := ⟨2, ![4096, 11008]⟩
abbrev S11008x4096 : Shape := ⟨2, ![11008, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x11008 : S_.BroadcastsInDim S4096x11008 (![] : Fin 0 → Fin S4096x11008.rank)
  reducesTo_S4096x11008_S_d0_1 : S4096x11008.ReducesTo [0, 1] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_arg5 : FVec F S4096x11008 .f32) (main_arg6 : FVec F S4096x11008 .f32) (main_arg7 : FVec F S11008x4096 .f32) (main_v13 : IVec S_ 1) (main_v16 : IVec S11008x4096 1) : IVec S_ 1 :=
  let main_c_5 : IVec S_ 1 := constantI S_ 1 1#1
  let main_v17 : IVec S_ 1 := (fun x v => Host.reduce IntOp.andi x v reducesTo_S11008x4096_S_d0_1 h_S_) main_v16 main_c_5
  let main_v18 : IVec S_ 1 := andi main_v13 main_v17
  let main_v19 : FVec F S4096x11008 .f32 := Host.absf main_arg5
  let main_cst_6 : FVec F S_ .f32 := constant S_ .f32 0x7F800000#32
  let main_v20 : FVec F S4096x11008 .f32 := broadcastInDim S4096x11008 ![] bcast_S_S4096x11008 main_cst_6
  let main_v21 : IVec S4096x11008 1 := cmpf .olt main_v19 main_v20
  let main_c_7 : IVec S_ 1 := constantI S_ 1 1#1
  let main_v22 : IVec S_ 1 := (fun x v => Host.reduce IntOp.andi x v reducesTo_S4096x11008_S_d0_1 h_S_) main_v21 main_c_7
  let main_v23 : IVec S_ 1 := andi main_v18 main_v22
  let main_v24 : FVec F S4096x11008 .f32 := Host.absf main_arg6
  let main_cst_8 : FVec F S_ .f32 := constant S_ .f32 0x7F800000#32
  let main_v25 : FVec F S4096x11008 .f32 := broadcastInDim S4096x11008 ![] bcast_S_S4096x11008 main_cst_8
  let main_v26 : IVec S4096x11008 1 := cmpf .olt main_v24 main_v25
  let main_c_9 : IVec S_ 1 := constantI S_ 1 1#1
  let main_v27 : IVec S_ 1 := (fun x v => Host.reduce IntOp.andi x v reducesTo_S4096x11008_S_d0_1 h_S_) main_v26 main_c_9
  let main_v28 : IVec S_ 1 := andi main_v23 main_v27
  let main_v29 : FVec F S11008x4096 .f32 := Host.absf main_arg7
  let main_cst_10 : FVec F S_ .f32 := constant S_ .f32 0x7F800000#32
  let main_v30 : FVec F S11008x4096 .f32 := broadcastInDim S11008x4096 ![] bcast_S_S11008x4096 main_cst_10
  let main_v31 : IVec S11008x4096 1 := cmpf .olt main_v29 main_v30
  let main_c_11 : IVec S_ 1 := constantI S_ 1 1#1
  let main_v32 : IVec S_ 1 := (fun x v => Host.reduce IntOp.andi x v reducesTo_S11008x4096_S_d0_1 h_S_) main_v31 main_c_11
  let main_v33 : IVec S_ 1 := andi main_v28 main_v32
  main_v33

def fn {F : FTy → Type} [FloatOps F] (main_arg0 : FVec F S2x2048x4096 .f32) (main_arg1 : IVec S2x2048 32) (main_arg2 : FVec F S4096x11008 .f32) (main_arg3 : FVec F S4096x11008 .f32) (main_arg4 : FVec F S11008x4096 .f32) (main_arg5 : FVec F S4096x11008 .f32) (main_arg6 : FVec F S4096x11008 .f32) (main_arg7 : FVec F S11008x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x11008 .f32 := Host.absf main_arg2
  let main_cst_0 : FVec F S_ .f32 := constant S_ .f32 0x7F800000#32
  let main_v5 : FVec F S4096x11008 .f32 := broadcastInDim S4096x11008 ![] bcast_S_S4096x11008 main_cst_0
  let main_v6 : IVec S4096x11008 1 := cmpf .olt main_v4 main_v5
  let main_c_1 : IVec S_ 1 := constantI S_ 1 1#1
  let main_v7 : IVec S_ 1 := (fun x v => Host.reduce IntOp.andi x v reducesTo_S4096x11008_S_d0_1 h_S_) main_v6 main_c_1
  let main_v8 : IVec S_ 1 := andi main_v3 main_v7
  let main_v9 : FVec F S4096x11008 .f32 := Host.absf main_arg3
  let main_cst_2 : FVec F S_ .f32 := constant S_ .f32 0x7F800000#32
  let main_v10 : FVec F S4096x11008 .f32 := broadcastInDim S4096x11008 ![] bcast_S_S4096x11008 main_cst_2
  let main_v11 : IVec S4096x11008 1 := cmpf .olt main_v9 main_v10
  let main_c_3 : IVec S_ 1 := constantI S_ 1 1#1
  let main_v12 : IVec S_ 1 := (fun x v => Host.reduce IntOp.andi x v reducesTo_S4096x11008_S_d0_1 h_S_) main_v11 main_c_3
  let main_v13 : IVec S_ 1 := andi main_v8 main_v12
  let main_v14 : FVec F S11008x4096 .f32 := Host.absf main_arg4
  let main_cst_4 : FVec F S_ .f32 := constant S_ .f32 0x7F800000#32
  let main_v15 : FVec F S11008x4096 .f32 := broadcastInDim S11008x4096 ![] bcast_S_S11008x4096 main_cst_4
  let main_v16 : IVec S11008x4096 1 := cmpf .olt main_v14 main_v15
  fn_part1 (F := F) main_arg5 main_arg6 main_arg7 main_v13 main_v16
-- ==== Kernel.lean ====
abbrev S2x2048x4096 : Shape := ⟨3, ![2, 2048, 4096]⟩
abbrev S2x2048 : Shape := ⟨2, ![2, 2048]⟩
abbrev S4096x11008 : Shape := ⟨2, ![4096, 11008]⟩
abbrev S11008x4096 : Shape := ⟨2, ![11008, 4096]⟩
abbrev S4096x4096 : Shape := ⟨2, ![4096, 4096]⟩
abbrev S512x4096 : Shape := ⟨2, ![512, 4096]⟩
abbrev S4096x256 : Shape := ⟨2, ![4096, 256]⟩
abbrev S256x4096 : Shape := ⟨2, ![256, 4096]⟩
abbrev S512x256 : Shape := ⟨2, ![512, 256]⟩
abbrev S_ : Shape := ⟨0, ![]⟩
abbrev S2x2047 : Shape := ⟨2, ![2, 2047]⟩
abbrev S2x1 : Shape := ⟨2, ![2, 1]⟩
abbrev S2x2048x1 : Shape := ⟨3, ![2, 2048, 1]⟩

abbrev nBuf : Space → Nat
  | .hbm => 33
  | .vmem => 20
  | .smem => 0
  | _ => 0

abbrev bufTy : (tb : Table) → Fin (tcTables nBuf tb) → BufTy
  | .hbm, ⟨0, _⟩ => ⟨S2x2048x4096, .f32⟩
  | .hbm, ⟨1, _⟩ => ⟨S2x2048, .i32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S4096x11008, .f32⟩
  | .hbm, ⟨6, _⟩ => ⟨S4096x11008, .f32⟩
  | .hbm, ⟨7, _⟩ => ⟨S11008x4096, .f32⟩
  | .hbm, ⟨8, _⟩ => ⟨S4096x4096, .f32⟩
  | .hbm, ⟨9, _⟩ => ⟨S4096x4096, .bf16⟩
  | .hbm, ⟨10, _⟩ => ⟨S4096x11008, .bf16⟩
  | .hbm, ⟨11, _⟩ => ⟨S4096x11008, .bf16⟩
  | .hbm, ⟨12, _⟩ => ⟨S11008x4096, .bf16⟩
  | .hbm, ⟨13, _⟩ => ⟨S4096x11008, .bf16⟩
  | .hbm, ⟨14, _⟩ => ⟨S4096x11008, .bf16⟩
  | .hbm, ⟨15, _⟩ => ⟨S11008x4096, .bf16⟩
  | .hbm, ⟨16, _⟩ => ⟨S4096x4096, .f32⟩
  | .hbm, ⟨17, _⟩ => ⟨S2x2048x4096, .f32⟩
  | .hbm, ⟨18, _⟩ => ⟨S4096x4096, .f32⟩
  | .hbm, ⟨19, _⟩ => ⟨S2x2048x4096, .f32⟩
  | .hbm, ⟨20, _⟩ => ⟨S_, .i32⟩
  | .hbm, ⟨21, _⟩ => ⟨S2x2048, .i32⟩
  | .hbm, ⟨22, _⟩ => ⟨S2x2048, .i1⟩
  | .hbm, ⟨23, _⟩ => ⟨S2x2047, .i1⟩
  | .hbm, ⟨24, _⟩ => ⟨S2x2047, .i1⟩
  | .hbm, ⟨25, _⟩ => ⟨S2x2047, .i1⟩
  | .hbm, ⟨26, _⟩ => ⟨S2x1, .i1⟩
  | .hbm, ⟨27, _⟩ => ⟨S_, .i1⟩
  | .hbm, ⟨28, _⟩ => ⟨S2x1, .i1⟩
  | .hbm, ⟨29, _⟩ => ⟨S2x2048, .i1⟩
  | .hbm, ⟨30, _⟩ => ⟨S2x2048x1, .i1⟩
  | .hbm, ⟨31, _⟩ => ⟨S2x2048x4096, .i1⟩
  | .hbm, ⟨32, _⟩ => ⟨S2x2048x4096, .f32⟩
  | .local _ .vmem, ⟨0, _⟩ => ⟨S512x4096, .bf16⟩
  | .local _ .vmem, ⟨1, _⟩ => ⟨S512x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x4096, .bf16⟩
  | .local _ .vmem, ⟨7, _⟩ => ⟨S256x4096, .bf16⟩
  | .local _ .vmem, ⟨8, _⟩ => ⟨S512x4096, .f32⟩
  | .local _ .vmem, ⟨9, _⟩ => ⟨S512x4096, .f32⟩
  | .local _ .vmem, ⟨10, _⟩ => ⟨S512x4096, .bf16⟩
  | .local _ .vmem, ⟨11, _⟩ => ⟨S512x4096, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S256x4096, .bf16⟩
  | .local _ .vmem, ⟨17, _⟩ => ⟨S256x4096, .bf16⟩
  | .local _ .vmem, ⟨18, _⟩ => ⟨S512x4096, .f32⟩
  | .local _ .vmem, ⟨19, _⟩ => ⟨S512x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S2x2048x4096_S4096x4096 : S2x2048x4096.ShapeCasts S4096x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S4096x4096_S2x2048x4096 : S4096x4096.ShapeCasts S2x2048x4096
  bcast_S_S2x2048 : S_.BroadcastsInDim S2x2048 (![] : Fin 0 → Fin S2x2048.rank)
  slices_S2x2048_S2x2047_0_0 : S2x2048.Slices ![0, 0] S2x2047
  slices_S2x2048_S2x2047_0_1 : S2x2048.Slices ![0, 1] S2x2047
  slices_S2x2047_S2x1_0_0 : S2x2047.Slices ![0, 0] S2x1
  bcast_S_S2x1 : S_.BroadcastsInDim S2x1 (![] : Fin 0 → Fin S2x1.rank)
  concatenates_S2x2047_S2x1_S2x2048_d1 : Shape.Concatenates [S2x2047, S2x1] S2x2048 1
  bcast_S2x2048_S2x2048x1_0_1 : S2x2048.BroadcastsInDim S2x2048x1 (![0, 1] : Fin 2 → Fin S2x2048x1.rank)
  bcast_S2x2048x1_S2x2048x4096_0_1_2 : S2x2048x1.BroadcastsInDim S2x2048x4096 (![0, 1, 2] : Fin 3 → Fin S2x2048x4096.rank)
  dot_S512x4096_S4096x256_S512x256_1_0_0_1_n_n_wf : DotDims.WF S512x4096 S4096x256 S512x256 [1] [0] [0] [1] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x11008.size a
  hwx0_1 : ∀ i : grid0.Coords, EltTy.bits .bf16 = 32 ∨ (Rect.block (s := S4096x11008) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x11008.size a
  hwx0_2 : ∀ i : grid0.Coords, EltTy.bits .bf16 = 32 ∨ (Rect.block (s := S4096x11008) S4096x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S11008x4096.size a
  hwx0_3 : ∀ i : grid0.Coords, EltTy.bits .bf16 = 32 ∨ (Rect.block (s := S11008x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .f32 = 32 ∨ (Rect.block (s := S4096x4096) S512x4096.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x11008.size a
  hwx1_1 : ∀ i : grid1.Coords, EltTy.bits .bf16 = 32 ∨ (Rect.block (s := S4096x11008) S4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S4096x11008.size a
  hwx1_2 : ∀ i : grid1.Coords, EltTy.bits .bf16 = 32 ∨ (Rect.block (s := S4096x11008) S4096x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S11008x4096.size a
  hwx1_3 : ∀ i : grid1.Coords, EltTy.bits .bf16 = 32 ∨ (Rect.block (s := S11008x4096) S256x4096.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x4096.size a ≤ S4096x4096.size a
  hwx1_4 : ∀ i : grid1.Coords, EltTy.bits .f32 = 32 ∨ (Rect.block (s := S4096x4096) S512x4096.size (cc1_transform_4 i) (hinb1_4 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S4096x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S512x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x2048x4096 : Shape := ⟨3, ![2, 2048, 4096]⟩
abbrev S2x2048 : Shape := ⟨2, ![2, 2048]⟩
abbrev S4096x11008 : Shape := ⟨2, ![4096, 11008]⟩
abbrev S11008x4096 : Shape := ⟨2, ![11008, 4096]⟩
abbrev S_ : Shape := ⟨0, ![]⟩
abbrev S2x2047 : Shape := ⟨2, ![2, 2047]⟩
abbrev S2x1 : Shape := ⟨2, ![2, 1]⟩
abbrev S2x2048x11008 : Shape := ⟨3, ![2, 2048, 11008]⟩
abbrev S2x2048x1 : Shape := ⟨3, ![2, 2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048, .i32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S4096x11008, .f32⟩
  | .hbm, ⟨6, _⟩ => ⟨S4096x11008, .f32⟩
  | .hbm, ⟨7, _⟩ => ⟨S11008x4096, .f32⟩
  | .hbm, ⟨8, _⟩ => ⟨S_, .i32⟩
  | .hbm, ⟨9, _⟩ => ⟨S2x2048, .i32⟩
  | .hbm, ⟨10, _⟩ => ⟨S2x2048, .i1⟩
  | .hbm, ⟨11, _⟩ => ⟨S2x2047, .i1⟩
  | .hbm, ⟨12, _⟩ => ⟨S2x2047, .i1⟩
  | .hbm, ⟨13, _⟩ => ⟨S2x2047, .i1⟩
  | .hbm, ⟨14, _⟩ => ⟨S2x1, .i1⟩
  | .hbm, ⟨15, _⟩ => ⟨S_, .i1⟩
  | .hbm, ⟨16, _⟩ => ⟨S2x1, .i1⟩
  | .hbm, ⟨17, _⟩ => ⟨S2x2048, .i1⟩
  | .hbm, ⟨18, _⟩ => ⟨S2x2048x11008, .f32⟩
  | .hbm, ⟨19, _⟩ => ⟨S2x2048x11008, .f32⟩
  | .hbm, ⟨20, _⟩ => ⟨S2x2048x11008, .f32⟩
  | .hbm, ⟨21, _⟩ => ⟨S_, .f32⟩
  | .hbm, ⟨22, _⟩ => ⟨S2x2048x11008, .f32⟩
  | .hbm, ⟨23, _⟩ => ⟨S2x2048x11008, .f32⟩
  | .hbm, ⟨24, _⟩ => ⟨S_, .f32⟩
  | .hbm, ⟨25, _⟩ => ⟨S2x2048x11008, .f32⟩
  | .hbm, ⟨26, _⟩ => ⟨S2x2048x11008, .f32⟩
  | .hbm, ⟨27, _⟩ => ⟨S2x2048x11008, .f32⟩
  | .hbm, ⟨28, _⟩ => ⟨S2x2048x11008, .f32⟩
  | .hbm, ⟨29, _⟩ => ⟨S2x2048x11008, .f32⟩
  | .hbm, ⟨30, _⟩ => ⟨S2x2048x4096, .f32⟩
  | .hbm, ⟨31, _⟩ => ⟨S2x2048x11008, .f32⟩
  | .hbm, ⟨32, _⟩ => ⟨S2x2048x11008, .f32⟩
  | .hbm, ⟨33, _⟩ => ⟨S2x2048x11008, .f32⟩
  | .hbm, ⟨34, _⟩ => ⟨S_, .f32⟩
  | .hbm, ⟨35, _⟩ => ⟨S2x2048x11008, .f32⟩
  | .hbm, ⟨36, _⟩ => ⟨S2x2048x11008, .f32⟩
  | .hbm, ⟨37, _⟩ => ⟨S_, .f32⟩
  | .hbm, ⟨38, _⟩ => ⟨S2x2048x11008, .f32⟩
  | .hbm, ⟨39, _⟩ => ⟨S2x2048x11008, .f32⟩
  | .hbm, ⟨40, _⟩ => ⟨S2x2048x11008, .f32⟩
  | .hbm, ⟨41, _⟩ => ⟨S2x2048x11008, .f32⟩
  | .hbm, ⟨42, _⟩ => ⟨S2x2048x11008, .f32⟩
  | .hbm, ⟨43, _⟩ => ⟨S2x2048x4096, .f32⟩
  | .hbm, ⟨44, _⟩ => ⟨S2x2048x1, .i1⟩
  | .hbm, ⟨45, _⟩ => ⟨S2x2048x4096, .i1⟩
  | .hbm, ⟨46, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call2_v0 : Ref sig .tc := ⟨.hbm, 45, rfl⟩
abbrev main_v19 : Ref sig .tc := ⟨.hbm, 46, rfl⟩

abbrev nD : Nat := 1
abbrev τ : Topo := Topo.v7x

variable {F : FTy → Type} [FloatOps F]

class Facts₀ : Prop where
  bcast_S_S2x2048 : S_.BroadcastsInDim S2x2048 (![] : Fin 0 → Fin S2x2048.rank)
  slices_S2x2048_S2x2047_0_0 : S2x2048.Slices ![0, 0] S2x2047
  slices_S2x2048_S2x2047_0_1 : S2x2048.Slices ![0, 1] S2x2047
  slices_S2x2047_S2x1_0_0 : S2x2047.Slices ![0, 0] S2x1
  bcast_S_S2x1 : S_.BroadcastsInDim S2x1 (![] : Fin 0 → Fin S2x1.rank)
  concatenates_S2x2047_S2x1_S2x2048_d1 : Shape.Concatenates [S2x2047, S2x1] S2x2048 1
  bcast_S_S2x2048x11008 : S_.BroadcastsInDim S2x2048x11008 (![] : Fin 0 → Fin S2x2048x11008.rank)
  bcast_S2x2048_S2x2048x1_0_1 : S2x2048.BroadcastsInDim S2x2048x1 (![0, 1] : Fin 2 → Fin S2x2048x1.rank)
  bcast_S2x2048x1_S2x2048x4096_0_1_2 : S2x2048x1.BroadcastsInDim S2x2048x4096 (![0, 1, 2] : Fin 3 → Fin S2x2048x4096.rank)
  dot_S2x2048x4096_S4096x11008_S2x2048x11008_2_0_01_1_n_n_wf : DotDims.WF S2x2048x4096 S4096x11008 S2x2048x11008 [2] [0] [0, 1] [1] [] []
  dot_S2x2048x11008_S11008x4096_S2x2048x4096_2_0_01_1_n_n_wf : DotDims.WF S2x2048x11008 S11008x4096 S2x2048x4096 [2] [0] [0, 1] [1] [] []

variable [Facts₀]

def dot_S2x2048x4096_S4096x11008_S2x2048x11008_2_0_01_1_n_n : DotDims S2x2048x4096 S4096x11008 S2x2048x11008 where
  lhsContracting := [2]
  rhsContracting := [0]
  lhsNonContracting := [0, 1]
  rhsNonContracting := [1]
  lhsBatch := []
  rhsBatch := []
  wf := dot_S2x2048x4096_S4096x11008_S2x2048x11008_2_0_01_1_n_n_wf
def dot_S2x2048x11008_S11008x4096_S2x2048x4096_2_0_01_1_n_n : DotDims S2x2048x11008 S11008x4096 S2x2048x4096 where
  lhsContracting := [2]
  rhsContracting := [0]
  lhsNonContracting := [0, 1]
  rhsNonContracting := [1]
  lhsBatch := []
  rhsBatch := []
  wf := dot_S2x2048x11008_S11008x4096_S2x2048x4096_2_0_01_1_n_n_wf

class Facts : Prop extends Facts₀ where

variable [Facts]
-- ==== Proof.KernelRun.lean ====
/-
  The idealized kernel program's run with its result named.

  From any launch memory every weakly fair execution of the program terminates without a fault, the argument arrays
  unchanged, and the result buffer ends at the contents the program's segments give it: the host operations before,
  between and after the two kernel launches folded over the launch memory, each launch's arrays at what its write-backs
  leave (`W6`, read at the result buffer). The launch over the segments is the library's theorem for a program of several
  kernel regions; the final state is read at every unscoped buffer, of which the result buffer is one.
-/
import proofs.«168073_j29162827940530_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run_result : θ_run defs (onTc (τ := τ) (main (F := F))) ⟨m, fun _ => 0, ρ⟩ (fun r => ∀ c : Dev nD,
      r.2.mem ((c.tc : Thread nD τ).loc main_v21) = W6 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v21 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Whole

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.Tile.lean ====
/-
  One grid point's contribution to an output tile, read at an entry.

  At a grid point the body holds a 512 x 4096 block of rows `x0`, 4096 x 256 blocks `x1`, `x2` of the gate and up
  weights and a 256 x 4096 block `x3` of the down weights. With g = x0 * x1 and u = x0 * x2 (matrix products) it adds
  to the output tile the product ((g . logistic g) . u) * x3, the dots entrywise. Read at entry (r, d) over the
  extended reals this addend is
      sum over f' < 256 of ((g r f' * logistic (g r f')) * u r f') * x3 f' d,   g r f' = sum over k of x0 r k * x1 k f',
  changes of float format being the identity. The stored value is the tile's previous contents plus this addend
  (`stored_eq`), for both launches of the kernel.
-/
import proofs.«168073_j29162827940530_1_alg».proof.Proof.Gen.KernelIdeal.Skeleton
import proofs.«168073_j29162827940530_1_alg».proof.Proof.LibMatmul
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- The addend of one grid point: ((x0 x1 . logistic (x0 x1)) . x0 x2) x3. -/
def addend (x0 : FVec Ideal S512x4096 .bf16) (x1 x2 : FVec Ideal S4096x256 .bf16) (x3 : FVec Ideal S256x4096 .bf16) :
    FVec Ideal S512x4096 .f32 :=
  matmul dot_S512x256_S256x4096_S512x4096_1_0_0_1_n_n none
    (truncf .bf16 (mulf (mulf (matmul dot_S512x4096_S4096x256_S512x256_1_0_0_1_n_n none x0 x1 (constant (F := Ideal) S512x256 .f32 0x00000000#32))
        (logistic (matmul dot_S512x4096_S4096x256_S512x256_1_0_0_1_n_n none x0 x1 (constant (F := Ideal) S512x256 .f32 0x00000000#32))))
      (matmul dot_S512x4096_S4096x256_S512x256_1_0_0_1_n_n none x0 x2 (constant (F := Ideal) S512x256 .f32 0x00000000#32))) bitsLt_bf16_f32)
    x3 (constant (F := Ideal) S512x4096 .f32 0x00000000#32)

/-- What the body stores, in the first launch: the tile's contents before, plus the addend. -/
theorem stored_eq (x0 : FVec Ideal S512x4096 .bf16) (x1 x2 : FVec Ideal S4096x256 .bf16) (xo : FVec Ideal S512x4096 .f32)
    (x3 : FVec Ideal S256x4096 .bf16) : k0_pay2 (F := Ideal) x0 x1 x2 xo x3 = addf xo (addend x0 x1 x2 x3) := by
  unfold k0_pay2 addend
  simp only [shapeCast_self]

/-- The same in the second launch. -/
theorem stored_eq' (x0 : FVec Ideal S512x4096 .bf16) (x1 x2 : FVec Ideal S4096x256 .bf16) (xo : FVec Ideal S512x4096 .f32)
    (x3 : FVec Ideal S256x4096 .bf16) : k1_pay2 (F := Ideal) x0 x1 x2 xo x3 = addf xo (addend x0 x1 x2 x3) := by
  unfold k1_pay2 addend
  simp only [shapeCast_self]

/-- Entry (r, f') of a block of rows times a block of gate or up weights. -/
def g (x0 : FVec Ideal S512x4096 .bf16) (x1 : FVec Ideal S4096x256 .bf16) (r : Fin 512) (f' : Fin 256) : EReal :=
  ∑ k : Fin 4096, x0 (ix2 r k) * x1 (ix2 k f')

/-- The addend at entry (r, d). -/
theorem addend_apply (x0 : FVec Ideal S512x4096 .bf16) (x1 x2 : FVec Ideal S4096x256 .bf16) (x3 : FVec Ideal S256x4096 .bf16)
    (r : Fin 512) (d : Fin 4096) :
    addend x0 x1 x2 x3 (ix2 r d)
      = ∑ f' : Fin 256, ((g x0 x1 r f' * Ideal.logistic (g x0 x1 r f')) * g x0 x2 r f') * x3 (ix2 f' d) := by
  unfold addend
  refine (Cert.MatmulAt.matmul_zero_plain_apply (M := 512) (K := 256) (N := 4096)
    dot_S512x256_S256x4096_S512x4096_1_0_0_1_n_n_wf none _ x3 r d).trans ?_
  refine Finset.sum_congr rfl fun f' _ => ?_
  refine congrArg (· * x3 (ix2 f' d)) ?_
  have e1 : matmul dot_S512x4096_S4096x256_S512x256_1_0_0_1_n_n none x0 x1 (constant (F := Ideal) S512x256 .f32 0x00000000#32) (ix2 r f') = g x0 x1 r f' :=
    Cert.MatmulAt.matmul_zero_plain_apply (M := 512) (K := 4096) (N := 256) dot_S512x4096_S4096x256_S512x256_1_0_0_1_n_n_wf none x0 x1 r f'
  have e2 : matmul dot_S512x4096_S4096x256_S512x256_1_0_0_1_n_n none x0 x2 (constant (F := Ideal) S512x256 .f32 0x00000000#32) (ix2 r f') = g x0 x2 r f' :=
    Cert.MatmulAt.matmul_zero_plain_apply (M := 512) (K := 4096) (N := 256) dot_S512x4096_S4096x256_S512x256_1_0_0_1_n_n_wf none x0 x2 r f'
  show ((matmul dot_S512x4096_S4096x256_S512x256_1_0_0_1_n_n none x0 x1 (constant (F := Ideal) S512x256 .f32 0x00000000#32) (ix2 r f'))
      * Ideal.logistic (matmul dot_S512x4096_S4096x256_S512x256_1_0_0_1_n_n none x0 x1 (constant (F := Ideal) S512x256 .f32 0x00000000#32) (ix2 r f')))
      * (matmul dot_S512x4096_S4096x256_S512x256_1_0_0_1_n_n none x0 x2 (constant (F := Ideal) S512x256 .f32 0x00000000#32) (ix2 r f')) = _
  rw [e1, e2]

end Cert.KernelIdeal.Tile

end
-- ==== Proof.Swiglu.lean ====
/-
  The gated feed-forward layer as a function of its four matrices, the one law of sums the proof needs, and the
  reading of the programs' arrays as those matrices.

  For a row matrix X (4096 x 4096), gate and up weights WG, WU (4096 x 11008) and down weights WD (11008 x 4096),
  over the extended reals:
      proj X W n f   = sum over k of X n k * W k f                                  (a projection of row n)
      hidden n f     = (proj X WG n f * logistic (proj X WG n f)) * proj X WU n f    (the gated hidden unit)
      layer n d      = sum over f of hidden n f * WD f d.
  The activations arrive as a 2 x 2048 x 4096 array; token (b, l) is row 2048 b + l of X (`tokens`), and the result
  array's entry (b, l, d) is entry (2048 b + l, d) of the layer's output (`perToken`).
  A sum over the 11008 hidden units taken as 43 consecutive tiles of 256 units is the sum over all of them
  (`sum_tiles`): only commutativity and associativity of addition are used, so nothing has to be finite.
-/
import Mathlib.Data.EReal.Basic
import Mathlib.Algebra.BigOperators.Fin
import Mathlib.Logic.Equiv.Fin.Basic
import Idealize.ShloMosaic.PureOps.Ideal
import Idealize.ShloMosaic.Lib.ValueIdx

noncomputable section

namespace Cert.Swiglu

open Idealize.ShloMosaic Idealize.ShloMosaic.ValueIdx

/-- A projection: row `n` of `X` against column `f` of `W`. -/
def proj {K N : ℕ} (X : Fin 4096 → Fin K → EReal) (W : Fin K → Fin N → EReal) (n : Fin 4096) (f : Fin N) : EReal :=
  ∑ k : Fin K, X n k * W k f

/-- The gated hidden unit `f` of row `n`: the gate projection times its logistic, times the up projection. -/
def hidden (X : Fin 4096 → Fin 4096 → EReal) (WG WU : Fin 4096 → Fin 11008 → EReal) (n : Fin 4096) (f : Fin 11008) : EReal :=
  (proj X WG n f * Ideal.logistic (proj X WG n f)) * proj X WU n f

/-- The layer's output entry `(n, d)`. -/
def layer (X : Fin 4096 → Fin 4096 → EReal) (WG WU : Fin 4096 → Fin 11008 → EReal) (WD : Fin 11008 → Fin 4096 → EReal)
    (n d : Fin 4096) : EReal :=
  ∑ f : Fin 11008, hidden X WG WU n f * WD f d

/-- Hidden unit number `256 * s + f'`: unit `f'` of tile `s`. -/
def unit (s : Fin 43) (f' : Fin 256) : Fin 11008 := ⟨256 * s.val + f'.val, by have := s.isLt; have := f'.isLt; omega⟩

/-- A sum over all hidden units is the sum, over the 43 tiles, of the sums over each tile's 256 units. -/
theorem sum_tiles {M : Type*} [AddCommMonoid M] (a : Fin 11008 → M) : ∑ s : Fin 43, ∑ f' : Fin 256, a (unit s f') = ∑ f : Fin 11008, a f := by
  rw [← Fintype.sum_prod_type (f := fun p : Fin 43 × Fin 256 => a (unit p.1 p.2))]
  refine Fintype.sum_equiv (finProdFinEquiv (m := 43) (n := 256)) _ _ fun p => congrArg a (Fin.ext ?_)
  show 256 * p.1.val + p.2.val = p.2.val + 256 * p.1.val
  omega

/-- A 2 x 2048 x 4096 array of activations as a 4096 x 4096 matrix of token rows: row `n` is token `(n / 2048, n % 2048)`. -/
def tokens (x : (⟨3, ![2, 2048, 4096]⟩ : Shape).Idx → EReal) : Fin 4096 → Fin 4096 → EReal :=
  fun n k => x (ix3 (⟨n.val / 2048, by have := n.isLt; omega⟩ : Fin 2) (⟨n.val % 2048, by omega⟩ : Fin 2048) k)

/-- A rank-2 array as a matrix. -/
def mat {A B : ℕ} (w : (⟨2, ![A, B]⟩ : Shape).Idx → EReal) : Fin A → Fin B → EReal := fun a b => w (ix2 a b)

/-- A 4096 x 4096 matrix of token rows as a 2 x 2048 x 4096 array: entry `(b, l, d)` is entry `(2048 b + l, d)`. -/
def perToken (L : Fin 4096 → Fin 4096 → EReal) : (⟨3, ![2, 2048, 4096]⟩ : Shape).Idx → EReal :=
  fun i => L ⟨2048 * (i 0).val + (i 1).val, by
      have h0 : (i 0).val < 2 := (i 0).isLt
      have h1 : (i 1).val < 2048 := (i 1).isLt
      omega⟩ ⟨(i 2).val, (i 2).isLt⟩

end Cert.Swiglu

end
-- ==== Proof.LaunchA.lean ====
/-
  Kernel launch 0: what its output array holds when the launch returns.

  The grid has 8 x 43 points; point t = 43 q + s works on row tile q (rows 512 q .. 512 q + 511) and hidden tile s
  (hidden units 256 s .. 256 s + 255). The output tile of row tile q stays in its buffer over the 43 points of the
  row tile: the first point (s = 0) stores zero and then adds its addend, every later point adds its addend to what
  the point before left, and the last point (s = 42) is the one whose buffer is written back. So the tile written back
  is 0 plus the sum over s of the 43 addends (a fold over the points of the row tile, never over the whole grid),
  each addend a sum over the 256 hidden units of its tile; together the sum over all 11008 hidden units: the layer's
  output for those rows. The eight written-back tiles cover the array.
  The arrays are read as the launch finds them (`V`), whatever wrote them.
-/
import proofs.«168073_j29162827940530_1_alg».proof.Proof.Gen.KernelIdeal.Frame
import proofs.«168073_j29162827940530_1_alg».proof.Proof.Tile
import proofs.«168073_j29162827940530_1_alg».proof.Proof.Swiglu
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.LaunchA

open Cert.KernelIdeal Cert.KernelIdeal.Gen Idealize.ShloMosaic.ValueIdx

theorem hz : (![0, 0] : Fin 2 → Nat) = fun _ => 0 := funext fun a => by fin_cases a <;> rfl

section AnyValues

variable {F : FTy → Type} [FloatOps F]

/-- A point that is not the first of its row tile leaves, in the output tile's buffer holding `xo`, the value its one
    store writes: the body's stored term of the four input blocks and `xo`. -/
theorem found_B (c : Dev nD) (i : grid0.Coords) (a2 : Memref sig .tc .vmem S512x4096 .bf16) (h2 : a2.IsWhole)
    (a3 : Memref sig .tc .vmem S4096x256 .bf16) (h3 : a3.IsWhole) (a4 : Memref sig .tc .vmem S4096x256 .bf16) (h4 : a4.IsWhole)
    (a5 : Memref sig .tc .vmem S256x4096 .bf16) (h5 : a5.IsWhole) (a6 : Memref sig .tc .vmem S512x4096 .f32) (h6 : a6.IsWhole)
    (hc : ¬cond0_0 i) (x0 : Vec F S512x4096 .bf16) (x1 x2 : Vec F S4096x256 .bf16) (x3 : Vec F S256x4096 .bf16)
    (xo : Vec F S512x4096 .f32) :
    out0_B_4 c i a2 h2 a3 h3 a4 h4 a5 h5 a6 h6 hc x0 x1 x2 x3 xo = k0_pay2 x0 x1 x2 xo x3 := by
  unfold out0_B_4
  rw [View.read_writes_eq_canon _ _ _ (cover0_B_4 c i a2 h2 a3 h3 a4 h4 a5 h5 a6 h6 hc x0 x1 x2 x3 xo)]
  unfold kernelRun0_B
  dsimp only
  rw [View.canon_unit_zero hz]
  simp only [View.readAt_eq_ld, h2.read_unread, h3.read_unread, h4.read_unread, h5.read_unread, h6.read_unread,
    View.ld_unit_zero (S := S512x4096) hz, View.ld_unit_zero (S := S4096x256) hz, View.ld_unit_zero (S := S256x4096) hz]

/-- The first point of a row tile stores the zero tile, reads it back, and leaves the stored term over it. -/
theorem found_A (c : Dev nD) (i : grid0.Coords) (a2 : Memref sig .tc .vmem S512x4096 .bf16) (h2 : a2.IsWhole)
    (a3 : Memref sig .tc .vmem S4096x256 .bf16) (h3 : a3.IsWhole) (a4 : Memref sig .tc .vmem S4096x256 .bf16) (h4 : a4.IsWhole)
    (a5 : Memref sig .tc .vmem S256x4096 .bf16) (h5 : a5.IsWhole) (a6 : Memref sig .tc .vmem S512x4096 .f32) (h6 : a6.IsWhole)
    (hc : cond0_0 i) (x0 : Vec F S512x4096 .bf16) (x1 x2 : Vec F S4096x256 .bf16) (x3 : Vec F S256x4096 .bf16) :
    out0_A_4 c i a2 h2 a3 h3 a4 h4 a5 h5 a6 h6 hc x0 x1 x2 x3 = k0_pay2 x0 x1 x2 (k0_pay1 (F := F)) x3 := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S512x4096) hz, View.readCov_unit_zero (S := S512x4096) _ hz]
  simp only [View.readAt_eq_ld, h2.read_unread, h3.read_unread, h4.read_unread, h5.read_unread,
    View.ld_unit_zero (S := S512x4096) hz, View.ld_unit_zero (S := S4096x256) hz, View.ld_unit_zero (S := S256x4096) hz]

end AnyValues

/-! ## Over the extended reals -/

variable (V : (c : Dev nD) → (b : Ref sig .tc) → Buf (Elt Ideal) ((c : Thread nD τ).loc b))

/-- The zero tile is zero at every entry. -/
theorem zero_tile (y : S512x4096.Idx) : k0_pay1 (F := Ideal) y = 0 := Ideal.ofBits_zero_f32

/-- The addend of point `n` (nothing past the grid). -/
def addendAt (c : Dev nD) (n : ℕ) : FVec Ideal S512x4096 .f32 :=
  if h : n < cfg0.N then
    Tile.addend (iblk0 V c 0 ⟨n, h⟩) (iblk0 V c 1 ⟨n, h⟩) (iblk0 V c 2 ⟨n, h⟩) (iblk0 V c 3 ⟨n, h⟩)
  else fun _ => 0

/-- The output tile's buffer after point `t`: zero plus the addends of the points of `t`'s row tile up to `t`. -/
theorem tile_after (c : Dev nD) (t : Fin cfg0.N) (y : S512x4096.Idx) :
    outsAt0 V c t.val t.isLt y
      = 0 + ∑ s ∈ Finset.range (t.val % 43 + 1), addendAt V c (43 * (t.val / 43) + s) y := by
  have h' : 43 * (t.val / 43) + t.val % 43 < cfg0.N := by rw [Nat.div_add_mod]; exact t.isLt
  have key := Pipeline.eq_accAt_of_mod (N := cfg0.N) (fun n h => outsAt0 V c n h) 43
    (fun n h => addf (k0_pay1 (F := Ideal))
      (Tile.addend (iblk0 V c 0 ⟨n, h⟩) (iblk0 V c 1 ⟨n, h⟩) (iblk0 V c 2 ⟨n, h⟩) (iblk0 V c 3 ⟨n, h⟩)))
    (fun n h acc => addf acc
      (Tile.addend (iblk0 V c 0 ⟨n, h⟩) (iblk0 V c 1 ⟨n, h⟩) (iblk0 V c 2 ⟨n, h⟩) (iblk0 V c 3 ⟨n, h⟩)))
    (fun n h hm => (outsAt0_A V c ⟨n, h⟩ hm).trans ((found_A ..).trans (Tile.stored_eq ..)))
    (fun n h hm => (outsAt0_B V c ⟨n + 1, h⟩ hm).trans ((found_B ..).trans (Tile.stored_eq ..)))
    (by decide) t.val t.isLt h'
  refine (congrFun key y).trans ?_
  exact Pipeline.accAt_add_apply _ _ (fun _ => (0 : EReal)) (addendAt V c) (43 * (t.val / 43)) 42
    (fun h i => by
      show k0_pay1 (F := Ideal) i + _ = 0 + addendAt V c _ i
      unfold addendAt
      rw [dif_pos h, zero_tile])
    (fun n h acc i _ _ => by
      show acc i + _ = acc i + addendAt V c n i
      unfold addendAt
      rw [dif_pos h])
    (t.val % 43) (by omega) h' y

/-- The printed index maps at point `t = 43 q + s`: the row blocks move with `q`, the weight blocks with `s`. -/
theorem idx_facts : ∀ t : Fin cfg0.N,
    win0_0.index t (0 : Fin 2) = t.val / 43 ∧ win0_0.index t (1 : Fin 2) = 0
    ∧ win0_1.index t (0 : Fin 2) = 0 ∧ win0_1.index t (1 : Fin 2) = t.val % 43
    ∧ win0_2.index t (0 : Fin 2) = 0 ∧ win0_2.index t (1 : Fin 2) = t.val % 43
    ∧ win0_3.index t (0 : Fin 2) = t.val % 43 ∧ win0_3.index t (1 : Fin 2) = 0
    ∧ win0_4.index t (0 : Fin 2) = t.val / 43 ∧ win0_4.index t (1 : Fin 2) = 0 :=
  (by decide +kernel : ∀ t : Fin grid0.N, _)

/-- The block of rows at point `43 q + s`: rows `512 q + r` of the row array. -/
theorem read_rows (c : Dev nD) (t : Fin cfg0.N) (q s : ℕ) (ht : t.val = 43 * q + s) (hs : s < 43) (r : Fin 512) (k : Fin 4096)
    (n : Fin 4096) (hn : n.val = 512 * q + r.val) :
    (iblk0 V c 0 t : Vec Ideal S512x4096 .bf16) (ix2 r k) = V c main_v1 (ix2 n k) := by
  obtain ⟨e0, e1, -⟩ := idx_facts t
  unfold iblk0
  rw [View.read_apply]
  show V c main_v1 (((cfg0.win 0).blk t).view.emb (ix2 r k)) = V c main_v1 (ix2 n k)
  refine congrArg (V c main_v1) (funext fun a => Fin.ext ?_)
  match a with
  | ⟨0, _⟩ => show win0_0.index t (0 : Fin 2) * 512 + 1 * r.val = n.val; rw [e0, hn, ht]; omega
  | ⟨1, _⟩ => show win0_0.index t (1 : Fin 2) * 4096 + 1 * k.val = k.val; rw [e1]; omega

/-- The block of gate weights at point `43 q + s`: columns `256 s + f'`. -/
theorem read_gate (c : Dev nD) (t : Fin cfg0.N) (q s : ℕ) (ht : t.val = 43 * q + s) (hs : s < 43) (k : Fin 4096) (f' : Fin 256)
    (f : Fin 11008) (hf : f.val = 256 * s + f'.val) :
    (iblk0 V c 1 t : Vec Ideal S4096x256 .bf16) (ix2 k f') = V c main_v2 (ix2 k f) := by
  obtain ⟨-, -, e0, e1, -⟩ := idx_facts t
  unfold iblk0
  rw [View.read_apply]
  show V c main_v2 (((cfg0.win 1).blk t).view.emb (ix2 k f')) = V c main_v2 (ix2 k f)
  refine congrArg (V c main_v2) (funext fun a => Fin.ext ?_)
  match a with
  | ⟨0, _⟩ => show win0_1.index t (0 : Fin 2) * 4096 + 1 * k.val = k.val; rw [e0]; omega
  | ⟨1, _⟩ => show win0_1.index t (1 : Fin 2) * 256 + 1 * f'.val = f.val; rw [e1, hf, ht]; omega

/-- The block of up weights at point `43 q + s`: columns `256 s + f'`. -/
theorem read_up (c : Dev nD) (t : Fin cfg0.N) (q s : ℕ) (ht : t.val = 43 * q + s) (hs : s < 43) (k : Fin 4096) (f' : Fin 256)
    (f : Fin 11008) (hf : f.val = 256 * s + f'.val) :
    (iblk0 V c 2 t : Vec Ideal S4096x256 .bf16) (ix2 k f') = V c main_v3 (ix2 k f) := by
  obtain ⟨-, -, -, -, e0, e1, -⟩ := idx_facts t
  unfold iblk0
  rw [View.read_apply]
  show V c main_v3 (((cfg0.win 2).blk t).view.emb (ix2 k f')) = V c main_v3 (ix2 k f)
  refine congrArg (V c main_v3) (funext fun a => Fin.ext ?_)
  match a with
  | ⟨0, _⟩ => show win0_2.index t (0 : Fin 2) * 4096 + 1 * k.val = k.val; rw [e0]; omega
  | ⟨1, _⟩ => show win0_2.index t (1 : Fin 2) * 256 + 1 * f'.val = f.val; rw [e1, hf, ht]; omega

/-- The block of down weights at point `43 q + s`: rows `256 s + f'`. -/
theorem read_down (c : Dev nD) (t : Fin cfg0.N) (q s : ℕ) (ht : t.val = 43 * q + s) (hs : s < 43) (f' : Fin 256) (d : Fin 4096)
    (f : Fin 11008) (hf : f.val = 256 * s + f'.val) :
    (iblk0 V c 3 t : Vec Ideal S256x4096 .bf16) (ix2 f' d) = V c main_v4 (ix2 f d) := by
  obtain ⟨-, -, -, -, -, -, e0, e1, -⟩ := idx_facts t
  unfold iblk0
  rw [View.read_apply]
  show V c main_v4 (((cfg0.win 3).blk t).view.emb (ix2 f' d)) = V c main_v4 (ix2 f d)
  refine congrArg (V c main_v4) (funext fun a => Fin.ext ?_)
  match a with
  | ⟨0, _⟩ => show win0_3.index t (0 : Fin 2) * 256 + 1 * f'.val = f.val; rw [e0, hf, ht]; omega
  | ⟨1, _⟩ => show win0_3.index t (1 : Fin 2) * 4096 + 1 * d.val = d.val; rw [e1]; omega

/-- The four arrays the launch reads, as matrices. -/
def rows (c : Dev nD) : Fin 4096 → Fin 4096 → EReal := fun n k => V c main_v1 (ix2 n k)
def gateW (c : Dev nD) : Fin 4096 → Fin 11008 → EReal := fun k f => V c main_v2 (ix2 k f)
def upW (c : Dev nD) : Fin 4096 → Fin 11008 → EReal := fun k f => V c main_v3 (ix2 k f)
def downW (c : Dev nD) : Fin 11008 → Fin 4096 → EReal := fun f d => V c main_v4 (ix2 f d)

/-- The addend of point `43 q + s` at entry (r, d): hidden tile `s`'s part of the layer's entry (512 q + r, d). -/
theorem addendAt_apply (c : Dev nD) (q : ℕ) (hq : q < 8) (s : Fin 43) (r : Fin 512) (d : Fin 4096) (n : Fin 4096)
    (hn : n.val = 512 * q + r.val) :
    addendAt V c (43 * q + s.val) (ix2 r d)
      = ∑ f' : Fin 256, Swiglu.hidden (rows V c) (gateW V c) (upW V c) n (Swiglu.unit s f') * downW V c (Swiglu.unit s f') d := by
  have hN : cfg0.N = 344 := N_0
  have hs : s.val < 43 := s.isLt
  have hlt : 43 * q + s.val < cfg0.N := by omega
  unfold addendAt
  rw [dif_pos hlt, Tile.addend_apply]
  refine Finset.sum_congr rfl fun f' _ => ?_
  have eg : Tile.g (iblk0 V c 0 ⟨43 * q + s.val, hlt⟩) (iblk0 V c 1 ⟨43 * q + s.val, hlt⟩) r f'
      = Swiglu.proj (rows V c) (gateW V c) n (Swiglu.unit s f') := by
    unfold Tile.g Swiglu.proj
    refine Finset.sum_congr rfl fun k _ => ?_
    rw [read_rows V c ⟨43 * q + s.val, hlt⟩ q s.val rfl hs r k n hn,
      read_gate V c ⟨43 * q + s.val, hlt⟩ q s.val rfl hs k f' (Swiglu.unit s f') rfl]
    rfl
  have eu : Tile.g (iblk0 V c 0 ⟨43 * q + s.val, hlt⟩) (iblk0 V c 2 ⟨43 * q + s.val, hlt⟩) r f'
      = Swiglu.proj (rows V c) (upW V c) n (Swiglu.unit s f') := by
    unfold Tile.g Swiglu.proj
    refine Finset.sum_congr rfl fun k _ => ?_
    rw [read_rows V c ⟨43 * q + s.val, hlt⟩ q s.val rfl hs r k n hn,
      read_up V c ⟨43 * q + s.val, hlt⟩ q s.val rfl hs k f' (Swiglu.unit s f') rfl]
    rfl
  rw [eg, eu, read_down V c ⟨43 * q + s.val, hlt⟩ q s.val rfl hs f' d (Swiglu.unit s f') rfl]
  rfl

/-- The layer's output, as contents of the launch's output array. -/
def result (c : Dev nD) : Buf (Elt Ideal) ((c : Thread nD τ).loc main_v8) :=
  fun i => Swiglu.layer (rows V c) (gateW V c) (upW V c) (downW V c) ⟨(i 0).val, (i 0).isLt⟩ ⟨(i 1).val, (i 1).isLt⟩

/-- What the last point of row tile `q` writes back is that row tile of the layer's output. -/
theorem flushed_eq (c : Dev nD) (t : Fin cfg0.N) (hf : (cfg0.win 4).flush t = true) :
    (dat0 V c).flushed 4 t = ((cfg0.win 4).blk t).view.read (Elt Ideal) (result V c) := by
  have hN : cfg0.N = 344 := N_0
  have htN : t.val < 344 := lt_of_lt_of_eq t.isLt hN
  have h42 : t.val % 43 = 42 := (flush0_4 t).mp hf
  obtain ⟨-, -, -, -, -, -, -, -, e8, e9⟩ := idx_facts t
  show (cfg0.win 4).cut (grid0.coords t) ((dat0 V c).after 4 t) = _
  rw [after0_4]
  funext j
  obtain ⟨r, d, rfl⟩ : ∃ (r : Fin 512) (d : Fin 4096), j = ix2 r d := ⟨j 0, j 1, eq_ix2 j⟩
  have hr : r.val < 512 := r.isLt
  let n : Fin 4096 := ⟨512 * (t.val / 43) + r.val, by omega⟩
  have hemb : ((cfg0.win 4).blk t).view.emb (ix2 r d) = ix2 n d := by
    funext a; apply Fin.ext
    match a with
    | ⟨0, _⟩ => show win0_4.index t (0 : Fin 2) * 512 + 1 * r.val = 512 * (t.val / 43) + r.val; rw [e8]; omega
    | ⟨1, _⟩ => show win0_4.index t (1 : Fin 2) * 4096 + 1 * d.val = d.val; rw [e9]; omega
  show outsAt0 V c t.val t.isLt (ix2 r d) = result V c (((cfg0.win 4).blk t).view.emb (ix2 r d))
  rw [hemb, tile_after, h42, Finset.sum_range, zero_add]
  show _ = Swiglu.layer (rows V c) (gateW V c) (upW V c) (downW V c) n d
  unfold Swiglu.layer
  rw [← Swiglu.sum_tiles]
  refine Finset.sum_congr rfl fun s _ => ?_
  exact addendAt_apply V c (t.val / 43) (by omega) s r d n rfl

/-- An index of the output array is in point `t`'s block iff each coordinate is in the block's range. -/
theorem mem_blk (t : Fin cfg0.N) (i : S4096x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v8).slice (win0_4.rect t)).set ↔ _
  rw [View.set_slice_whole, Rect.mem_set_unit]
  exact Iff.rfl

/-- Every row lies in some row tile, and the last point of that row tile writes it back. -/
theorem cover (i : S4096x4096.Idx) : ∃ t : Fin cfg0.N, (cfg0.win 4).flush t = true ∧ i ∈ ((cfg0.win 4).blk t).view.set := by
  have hN : cfg0.N = 344 := N_0
  have hi0 : (i 0).val < 4096 := (i 0).isLt
  have hi1 : (i 1).val < 4096 := (i 1).isLt
  have hlt : 43 * ((i 0).val / 512) + 42 < cfg0.N := by omega
  obtain ⟨-, -, -, -, -, -, -, -, e8, e9⟩ := idx_facts ⟨43 * ((i 0).val / 512) + 42, hlt⟩
  refine ⟨⟨43 * ((i 0).val / 512) + 42, hlt⟩, (flush0_4 _).mpr (by show (43 * ((i 0).val / 512) + 42) % 43 = 42; omega), ?_⟩
  rw [mem_blk]
  intro a
  match a with
  | ⟨0, _⟩ =>
    show win0_4.index ⟨43 * ((i 0).val / 512) + 42, hlt⟩ (0 : Fin 2) * 512 ≤ (i 0).val
      ∧ (i 0).val < win0_4.index ⟨43 * ((i 0).val / 512) + 42, hlt⟩ (0 : Fin 2) * 512 + 512
    rw [e8]
    show (43 * ((i 0).val / 512) + 42) / 43 * 512 ≤ (i 0).val ∧ (i 0).val < (43 * ((i 0).val / 512) + 42) / 43 * 512 + 512
    omega
  | ⟨1, _⟩ =>
    show win0_4.index ⟨43 * ((i 0).val / 512) + 42, hlt⟩ (1 : Fin 2) * 4096 ≤ (i 1).val
      ∧ (i 1).val < win0_4.index ⟨43 * ((i 0).val / 512) + 42, hlt⟩ (1 : Fin 2) * 4096 + 4096
    rw [e9]
    omega

/-- The output array after the launch is the layer's output of the arrays the launch read. -/
theorem final (c : Dev nD) : (dat0 V c).arrAt 4 cfg0.N = result V c :=
  (dat0 V c).arrAt_eq_of_cover 4 (result V c) (flushed_eq V c) (cover)

end Cert.KernelIdeal.LaunchA

end
-- ==== Proof.LaunchB.lean ====
/-
  Kernel launch 1: what its output array holds when the launch returns.

  The grid has 8 x 43 points; point t = 43 q + s works on row tile q (rows 512 q .. 512 q + 511) and hidden tile s
  (hidden units 256 s .. 256 s + 255). The output tile of row tile q stays in its buffer over the 43 points of the
  row tile: the first point (s = 0) stores zero and then adds its addend, every later point adds its addend to what
  the point before left, and the last point (s = 42) is the one whose buffer is written back. So the tile written back
  is 0 plus the sum over s of the 43 addends (a fold over the points of the row tile, never over the whole grid),
  each addend a sum over the 256 hidden units of its tile; together the sum over all 11008 hidden units: the layer's
  output for those rows. The eight written-back tiles cover the array.
  The arrays are read as the launch finds them (`V`), whatever wrote them.
-/
import proofs.«168073_j29162827940530_1_alg».proof.Proof.Gen.KernelIdeal.Frame
import proofs.«168073_j29162827940530_1_alg».proof.Proof.Tile
import proofs.«168073_j29162827940530_1_alg».proof.Proof.Swiglu
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.LaunchB

open Cert.KernelIdeal Cert.KernelIdeal.Gen Idealize.ShloMosaic.ValueIdx

theorem hz : (![0, 0] : Fin 2 → Nat) = fun _ => 0 := funext fun a => by fin_cases a <;> rfl

section AnyValues

variable {F : FTy → Type} [FloatOps F]

/-- A point that is not the first of its row tile leaves, in the output tile's buffer holding `xo`, the value its one
    store writes: the body's stored term of the four input blocks and `xo`. -/
theorem found_B (c : Dev nD) (i : grid1.Coords) (a2 : Memref sig .tc .vmem S512x4096 .bf16) (h2 : a2.IsWhole)
    (a3 : Memref sig .tc .vmem S4096x256 .bf16) (h3 : a3.IsWhole) (a4 : Memref sig .tc .vmem S4096x256 .bf16) (h4 : a4.IsWhole)
    (a5 : Memref sig .tc .vmem S256x4096 .bf16) (h5 : a5.IsWhole) (a6 : Memref sig .tc .vmem S512x4096 .f32) (h6 : a6.IsWhole)
    (hc : ¬cond1_0 i) (x0 : Vec F S512x4096 .bf16) (x1 x2 : Vec F S4096x256 .bf16) (x3 : Vec F S256x4096 .bf16)
    (xo : Vec F S512x4096 .f32) :
    out1_B_4 c i a2 h2 a3 h3 a4 h4 a5 h5 a6 h6 hc x0 x1 x2 x3 xo = k1_pay2 x0 x1 x2 xo x3 := by
  unfold out1_B_4
  rw [View.read_writes_eq_canon _ _ _ (cover1_B_4 c i a2 h2 a3 h3 a4 h4 a5 h5 a6 h6 hc x0 x1 x2 x3 xo)]
  unfold kernelRun1_B
  dsimp only
  rw [View.canon_unit_zero hz]
  simp only [View.readAt_eq_ld, h2.read_unread, h3.read_unread, h4.read_unread, h5.read_unread, h6.read_unread,
    View.ld_unit_zero (S := S512x4096) hz, View.ld_unit_zero (S := S4096x256) hz, View.ld_unit_zero (S := S256x4096) hz]

/-- The first point of a row tile stores the zero tile, reads it back, and leaves the stored term over it. -/
theorem found_A (c : Dev nD) (i : grid1.Coords) (a2 : Memref sig .tc .vmem S512x4096 .bf16) (h2 : a2.IsWhole)
    (a3 : Memref sig .tc .vmem S4096x256 .bf16) (h3 : a3.IsWhole) (a4 : Memref sig .tc .vmem S4096x256 .bf16) (h4 : a4.IsWhole)
    (a5 : Memref sig .tc .vmem S256x4096 .bf16) (h5 : a5.IsWhole) (a6 : Memref sig .tc .vmem S512x4096 .f32) (h6 : a6.IsWhole)
    (hc : cond1_0 i) (x0 : Vec F S512x4096 .bf16) (x1 x2 : Vec F S4096x256 .bf16) (x3 : Vec F S256x4096 .bf16) :
    out1_A_4 c i a2 h2 a3 h3 a4 h4 a5 h5 a6 h6 hc x0 x1 x2 x3 = k1_pay2 x0 x1 x2 (k1_pay1 (F := F)) x3 := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S512x4096) hz, View.readCov_unit_zero (S := S512x4096) _ hz]
  simp only [View.readAt_eq_ld, h2.read_unread, h3.read_unread, h4.read_unread, h5.read_unread,
    View.ld_unit_zero (S := S512x4096) hz, View.ld_unit_zero (S := S4096x256) hz, View.ld_unit_zero (S := S256x4096) hz]

end AnyValues

/-! ## Over the extended reals -/

variable (V : (c : Dev nD) → (b : Ref sig .tc) → Buf (Elt Ideal) ((c : Thread nD τ).loc b))

/-- The zero tile is zero at every entry. -/
theorem zero_tile (y : S512x4096.Idx) : k1_pay1 (F := Ideal) y = 0 := Ideal.ofBits_zero_f32

/-- The addend of point `n` (nothing past the grid). -/
def addendAt (c : Dev nD) (n : ℕ) : FVec Ideal S512x4096 .f32 :=
  if h : n < cfg1.N then
    Tile.addend (iblk1 V c 0 ⟨n, h⟩) (iblk1 V c 1 ⟨n, h⟩) (iblk1 V c 2 ⟨n, h⟩) (iblk1 V c 3 ⟨n, h⟩)
  else fun _ => 0

/-- The output tile's buffer after point `t`: zero plus the addends of the points of `t`'s row tile up to `t`. -/
theorem tile_after (c : Dev nD) (t : Fin cfg1.N) (y : S512x4096.Idx) :
    outsAt1 V c t.val t.isLt y
      = 0 + ∑ s ∈ Finset.range (t.val % 43 + 1), addendAt V c (43 * (t.val / 43) + s) y := by
  have h' : 43 * (t.val / 43) + t.val % 43 < cfg1.N := by rw [Nat.div_add_mod]; exact t.isLt
  have key := Pipeline.eq_accAt_of_mod (N := cfg1.N) (fun n h => outsAt1 V c n h) 43
    (fun n h => addf (k1_pay1 (F := Ideal))
      (Tile.addend (iblk1 V c 0 ⟨n, h⟩) (iblk1 V c 1 ⟨n, h⟩) (iblk1 V c 2 ⟨n, h⟩) (iblk1 V c 3 ⟨n, h⟩)))
    (fun n h acc => addf acc
      (Tile.addend (iblk1 V c 0 ⟨n, h⟩) (iblk1 V c 1 ⟨n, h⟩) (iblk1 V c 2 ⟨n, h⟩) (iblk1 V c 3 ⟨n, h⟩)))
    (fun n h hm => (outsAt1_A V c ⟨n, h⟩ hm).trans ((found_A ..).trans (Tile.stored_eq' ..)))
    (fun n h hm => (outsAt1_B V c ⟨n + 1, h⟩ hm).trans ((found_B ..).trans (Tile.stored_eq' ..)))
    (by decide) t.val t.isLt h'
  refine (congrFun key y).trans ?_
  exact Pipeline.accAt_add_apply _ _ (fun _ => (0 : EReal)) (addendAt V c) (43 * (t.val / 43)) 42
    (fun h i => by
      show k1_pay1 (F := Ideal) i + _ = 0 + addendAt V c _ i
      unfold addendAt
      rw [dif_pos h, zero_tile])
    (fun n h acc i _ _ => by
      show acc i + _ = acc i + addendAt V c n i
      unfold addendAt
      rw [dif_pos h])
    (t.val % 43) (by omega) h' y

/-- The printed index maps at point `t = 43 q + s`: the row blocks move with `q`, the weight blocks with `s`. -/
theorem idx_facts : ∀ t : Fin cfg1.N,
    win1_0.index t (0 : Fin 2) = t.val / 43 ∧ win1_0.index t (1 : Fin 2) = 0
    ∧ win1_1.index t (0 : Fin 2) = 0 ∧ win1_1.index t (1 : Fin 2) = t.val % 43
    ∧ win1_2.index t (0 : Fin 2) = 0 ∧ win1_2.index t (1 : Fin 2) = t.val % 43
    ∧ win1_3.index t (0 : Fin 2) = t.val % 43 ∧ win1_3.index t (1 : Fin 2) = 0
    ∧ win1_4.index t (0 : Fin 2) = t.val / 43 ∧ win1_4.index t (1 : Fin 2) = 0 :=
  (by decide +kernel : ∀ t : Fin grid1.N, _)

/-- The block of rows at point `43 q + s`: rows `512 q + r` of the row array. -/
theorem read_rows (c : Dev nD) (t : Fin cfg1.N) (q s : ℕ) (ht : t.val = 43 * q + s) (hs : s < 43) (r : Fin 512) (k : Fin 4096)
    (n : Fin 4096) (hn : n.val = 512 * q + r.val) :
    (iblk1 V c 0 t : Vec Ideal S512x4096 .bf16) (ix2 r k) = V c main_v1 (ix2 n k) := by
  obtain ⟨e0, e1, -⟩ := idx_facts t
  unfold iblk1
  rw [View.read_apply]
  show V c main_v1 (((cfg1.win 0).blk t).view.emb (ix2 r k)) = V c main_v1 (ix2 n k)
  refine congrArg (V c main_v1) (funext fun a => Fin.ext ?_)
  match a with
  | ⟨0, _⟩ => show win1_0.index t (0 : Fin 2) * 512 + 1 * r.val = n.val; rw [e0, hn, ht]; omega
  | ⟨1, _⟩ => show win1_0.index t (1 : Fin 2) * 4096 + 1 * k.val = k.val; rw [e1]; omega

/-- The block of gate weights at point `43 q + s`: columns `256 s + f'`. -/
theorem read_gate (c : Dev nD) (t : Fin cfg1.N) (q s : ℕ) (ht : t.val = 43 * q + s) (hs : s < 43) (k : Fin 4096) (f' : Fin 256)
    (f : Fin 11008) (hf : f.val = 256 * s + f'.val) :
    (iblk1 V c 1 t : Vec Ideal S4096x256 .bf16) (ix2 k f') = V c main_v5 (ix2 k f) := by
  obtain ⟨-, -, e0, e1, -⟩ := idx_facts t
  unfold iblk1
  rw [View.read_apply]
  show V c main_v5 (((cfg1.win 1).blk t).view.emb (ix2 k f')) = V c main_v5 (ix2 k f)
  refine congrArg (V c main_v5) (funext fun a => Fin.ext ?_)
  match a with
  | ⟨0, _⟩ => show win1_1.index t (0 : Fin 2) * 4096 + 1 * k.val = k.val; rw [e0]; omega
  | ⟨1, _⟩ => show win1_1.index t (1 : Fin 2) * 256 + 1 * f'.val = f.val; rw [e1, hf, ht]; omega

/-- The block of up weights at point `43 q + s`: columns `256 s + f'`. -/
theorem read_up (c : Dev nD) (t : Fin cfg1.N) (q s : ℕ) (ht : t.val = 43 * q + s) (hs : s < 43) (k : Fin 4096) (f' : Fin 256)
    (f : Fin 11008) (hf : f.val = 256 * s + f'.val) :
    (iblk1 V c 2 t : Vec Ideal S4096x256 .bf16) (ix2 k f') = V c main_v6 (ix2 k f) := by
  obtain ⟨-, -, -, -, e0, e1, -⟩ := idx_facts t
  unfold iblk1
  rw [View.read_apply]
  show V c main_v6 (((cfg1.win 2).blk t).view.emb (ix2 k f')) = V c main_v6 (ix2 k f)
  refine congrArg (V c main_v6) (funext fun a => Fin.ext ?_)
  match a with
  | ⟨0, _⟩ => show win1_2.index t (0 : Fin 2) * 4096 + 1 * k.val = k.val; rw [e0]; omega
  | ⟨1, _⟩ => show win1_2.index t (1 : Fin 2) * 256 + 1 * f'.val = f.val; rw [e1, hf, ht]; omega

/-- The block of down weights at point `43 q + s`: rows `256 s + f'`. -/
theorem read_down (c : Dev nD) (t : Fin cfg1.N) (q s : ℕ) (ht : t.val = 43 * q + s) (hs : s < 43) (f' : Fin 256) (d : Fin 4096)
    (f : Fin 11008) (hf : f.val = 256 * s + f'.val) :
    (iblk1 V c 3 t : Vec Ideal S256x4096 .bf16) (ix2 f' d) = V c main_v7 (ix2 f d) := by
  obtain ⟨-, -, -, -, -, -, e0, e1, -⟩ := idx_facts t
  unfold iblk1
  rw [View.read_apply]
  show V c main_v7 (((cfg1.win 3).blk t).view.emb (ix2 f' d)) = V c main_v7 (ix2 f d)
  refine congrArg (V c main_v7) (funext fun a => Fin.ext ?_)
  match a with
  | ⟨0, _⟩ => show win1_3.index t (0 : Fin 2) * 256 + 1 * f'.val = f.val; rw [e0, hf, ht]; omega
  | ⟨1, _⟩ => show win1_3.index t (1 : Fin 2) * 4096 + 1 * d.val = d.val; rw [e1]; omega

/-- The four arrays the launch reads, as matrices. -/
def rows (c : Dev nD) : Fin 4096 → Fin 4096 → EReal := fun n k => V c main_v1 (ix2 n k)
def gateW (c : Dev nD) : Fin 4096 → Fin 11008 → EReal := fun k f => V c main_v5 (ix2 k f)
def upW (c : Dev nD) : Fin 4096 → Fin 11008 → EReal := fun k f => V c main_v6 (ix2 k f)
def downW (c : Dev nD) : Fin 11008 → Fin 4096 → EReal := fun f d => V c main_v7 (ix2 f d)

/-- The addend of point `43 q + s` at entry (r, d): hidden tile `s`'s part of the layer's entry (512 q + r, d). -/
theorem addendAt_apply (c : Dev nD) (q : ℕ) (hq : q < 8) (s : Fin 43) (r : Fin 512) (d : Fin 4096) (n : Fin 4096)
    (hn : n.val = 512 * q + r.val) :
    addendAt V c (43 * q + s.val) (ix2 r d)
      = ∑ f' : Fin 256, Swiglu.hidden (rows V c) (gateW V c) (upW V c) n (Swiglu.unit s f') * downW V c (Swiglu.unit s f') d := by
  have hN : cfg1.N = 344 := N_1
  have hs : s.val < 43 := s.isLt
  have hlt : 43 * q + s.val < cfg1.N := by omega
  unfold addendAt
  rw [dif_pos hlt, Tile.addend_apply]
  refine Finset.sum_congr rfl fun f' _ => ?_
  have eg : Tile.g (iblk1 V c 0 ⟨43 * q + s.val, hlt⟩) (iblk1 V c 1 ⟨43 * q + s.val, hlt⟩) r f'
      = Swiglu.proj (rows V c) (gateW V c) n (Swiglu.unit s f') := by
    unfold Tile.g Swiglu.proj
    refine Finset.sum_congr rfl fun k _ => ?_
    rw [read_rows V c ⟨43 * q + s.val, hlt⟩ q s.val rfl hs r k n hn,
      read_gate V c ⟨43 * q + s.val, hlt⟩ q s.val rfl hs k f' (Swiglu.unit s f') rfl]
    rfl
  have eu : Tile.g (iblk1 V c 0 ⟨43 * q + s.val, hlt⟩) (iblk1 V c 2 ⟨43 * q + s.val, hlt⟩) r f'
      = Swiglu.proj (rows V c) (upW V c) n (Swiglu.unit s f') := by
    unfold Tile.g Swiglu.proj
    refine Finset.sum_congr rfl fun k _ => ?_
    rw [read_rows V c ⟨43 * q + s.val, hlt⟩ q s.val rfl hs r k n hn,
      read_up V c ⟨43 * q + s.val, hlt⟩ q s.val rfl hs k f' (Swiglu.unit s f') rfl]
    rfl
  rw [eg, eu, read_down V c ⟨43 * q + s.val, hlt⟩ q s.val rfl hs f' d (Swiglu.unit s f') rfl]
  rfl

/-- The layer's output, as contents of the launch's output array. -/
def result (c : Dev nD) : Buf (Elt Ideal) ((c : Thread nD τ).loc main_v10) :=
  fun i => Swiglu.layer (rows V c) (gateW V c) (upW V c) (downW V c) ⟨(i 0).val, (i 0).isLt⟩ ⟨(i 1).val, (i 1).isLt⟩

/-- What the last point of row tile `q` writes back is that row tile of the layer's output. -/
theorem flushed_eq (c : Dev nD) (t : Fin cfg1.N) (hf : (cfg1.win 4).flush t = true) :
    (dat1 V c).flushed 4 t = ((cfg1.win 4).blk t).view.read (Elt Ideal) (result V c) := by
  have hN : cfg1.N = 344 := N_1
  have htN : t.val < 344 := lt_of_lt_of_eq t.isLt hN
  have h42 : t.val % 43 = 42 := (flush1_4 t).mp hf
  obtain ⟨-, -, -, -, -, -, -, -, e8, e9⟩ := idx_facts t
  show (cfg1.win 4).cut (grid1.coords t) ((dat1 V c).after 4 t) = _
  rw [after1_4]
  funext j
  obtain ⟨r, d, rfl⟩ : ∃ (r : Fin 512) (d : Fin 4096), j = ix2 r d := ⟨j 0, j 1, eq_ix2 j⟩
  have hr : r.val < 512 := r.isLt
  let n : Fin 4096 := ⟨512 * (t.val / 43) + r.val, by omega⟩
  have hemb : ((cfg1.win 4).blk t).view.emb (ix2 r d) = ix2 n d := by
    funext a; apply Fin.ext
    match a with
    | ⟨0, _⟩ => show win1_4.index t (0 : Fin 2) * 512 + 1 * r.val = 512 * (t.val / 43) + r.val; rw [e8]; omega
    | ⟨1, _⟩ => show win1_4.index t (1 : Fin 2) * 4096 + 1 * d.val = d.val; rw [e9]; omega
  show outsAt1 V c t.val t.isLt (ix2 r d) = result V c (((cfg1.win 4).blk t).view.emb (ix2 r d))
  rw [hemb, tile_after, h42, Finset.sum_range, zero_add]
  show _ = Swiglu.layer (rows V c) (gateW V c) (upW V c) (downW V c) n d
  unfold Swiglu.layer
  rw [← Swiglu.sum_tiles]
  refine Finset.sum_congr rfl fun s _ => ?_
  exact addendAt_apply V c (t.val / 43) (by omega) s r d n rfl

/-- An index of the output array is in point `t`'s block iff each coordinate is in the block's range. -/
theorem mem_blk (t : Fin cfg1.N) (i : S4096x4096.Idx) :
    i ∈ ((cfg1.win 4).blk t).view.set ↔ ∀ a : Fin 2, win1_4.index t a * S512x4096.size a ≤ (i a).val
      ∧ (i a).val < win1_4.index t a * S512x4096.size a + S512x4096.size a := by
  show i ∈ ((View.whole main_v10).slice (win1_4.rect t)).set ↔ _
  rw [View.set_slice_whole, Rect.mem_set_unit]
  exact Iff.rfl

/-- Every row lies in some row tile, and the last point of that row tile writes it back. -/
theorem cover (i : S4096x4096.Idx) : ∃ t : Fin cfg1.N, (cfg1.win 4).flush t = true ∧ i ∈ ((cfg1.win 4).blk t).view.set := by
  have hN : cfg1.N = 344 := N_1
  have hi0 : (i 0).val < 4096 := (i 0).isLt
  have hi1 : (i 1).val < 4096 := (i 1).isLt
  have hlt : 43 * ((i 0).val / 512) + 42 < cfg1.N := by omega
  obtain ⟨-, -, -, -, -, -, -, -, e8, e9⟩ := idx_facts ⟨43 * ((i 0).val / 512) + 42, hlt⟩
  refine ⟨⟨43 * ((i 0).val / 512) + 42, hlt⟩, (flush1_4 _).mpr (by show (43 * ((i 0).val / 512) + 42) % 43 = 42; omega), ?_⟩
  rw [mem_blk]
  intro a
  match a with
  | ⟨0, _⟩ =>
    show win1_4.index ⟨43 * ((i 0).val / 512) + 42, hlt⟩ (0 : Fin 2) * 512 ≤ (i 0).val
      ∧ (i 0).val < win1_4.index ⟨43 * ((i 0).val / 512) + 42, hlt⟩ (0 : Fin 2) * 512 + 512
    rw [e8]
    show (43 * ((i 0).val / 512) + 42) / 43 * 512 ≤ (i 0).val ∧ (i 0).val < (43 * ((i 0).val / 512) + 42) / 43 * 512 + 512
    omega
  | ⟨1, _⟩ =>
    show win1_4.index ⟨43 * ((i 0).val / 512) + 42, hlt⟩ (1 : Fin 2) * 4096 ≤ (i 1).val
      ∧ (i 1).val < win1_4.index ⟨43 * ((i 0).val / 512) + 42, hlt⟩ (1 : Fin 2) * 4096 + 4096
    rw [e9]
    omega

/-- The output array after the launch is the layer's output of the arrays the launch read. -/
theorem final (c : Dev nD) : (dat1 V c).arrAt 4 cfg1.N = result V c :=
  (dat1 V c).arrAt_eq_of_cover 4 (result V c) (flushed_eq V c) (cover)

end Cert.KernelIdeal.LaunchB

end
-- ==== Proof.Between.lean ====
/-
  The idealized kernel program's result, as a function of its arguments.

  The program converts the activations (reshaped to 4096 token rows) and the six weight arrays to the narrower
  float format (the identity over the extended reals), launches the kernel on the vision weights and on the language
  weights, reshapes both outputs back to 2 x 2048 x 4096, computes the token mask from the token types, and selects
  per token between the two outputs. Each launch's output array is the layer's output of the arrays it read
  (the two launch modules), so the result is: where the mask is set the vision layer's entry, else the language
  layer's, each at row 2048 b + l for token (b, l).
-/
import proofs.«168073_j29162827940530_1_alg».proof.Proof.KernelRun
import proofs.«168073_j29162827940530_1_alg».proof.Proof.LaunchA
import proofs.«168073_j29162827940530_1_alg».proof.Proof.LaunchB
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo Idealize.ShloMosaic.ValueIdx

/-- The token mask, broadcast over the features: token `(b, l)` is set when tokens `l` and `l + 1` of batch `b` both
    have type 1; the last token of a batch never is. -/
def mask (x1 : (⟨S2x2048, .i32⟩ : BufTy).Contents (Elt Ideal)) : (⟨S2x2048x4096, .i1⟩ : BufTy).Contents (Elt Ideal) :=
  broadcastInDim S2x2048x4096 ![0, 1, 2] bcast_S2x2048x1_S2x2048x4096_0_1_2
    (broadcastInDim S2x2048x1 ![0, 1] bcast_S2x2048_S2x2048x1_0_1
      (concatenate S2x2048 1
        [⟨S2x2047, andi
            (extractStridedSlice S2x2047 ![0, 0] (cmpi .eq x1 (broadcastInDim S2x2048 ![] bcast_S_S2x2048 (constantI S_ 32 1#32))) slices_S2x2048_S2x2047_0_0)
            (extractStridedSlice S2x2047 ![0, 1] (cmpi .eq x1 (broadcastInDim S2x2048 ![] bcast_S_S2x2048 (constantI S_ 32 1#32))) slices_S2x2048_S2x2047_0_1)⟩,
         ⟨S2x1, broadcastInDim S2x1 ![] bcast_S_S2x1 (constantI S_ 1 0#1)⟩]
        concatenates_S2x2047_S2x1_S2x2048_d1))

/-! ## The host operations, over any contents -/

section Stretches

variable (X : Valuation τ sig (Elt Ideal))

theorem before_rows : (StableHlo.after hostOps0 X (Proc.devRef .tc main_v1) : FVec Ideal S4096x4096 .bf16)
    = truncf (F := Ideal) .bf16 (shapeCast S4096x4096 (X (Proc.devRef .tc main_arg0) : FVec Ideal S2x2048x4096 .f32) shapeCasts_S2x2048x4096_S4096x4096) bitsLt_bf16_f32 := by
  after_results; rfl
theorem before_v2 : (StableHlo.after hostOps0 X (Proc.devRef .tc main_v2) : FVec Ideal S4096x11008 .bf16)
    = truncf (F := Ideal) .bf16 (X (Proc.devRef .tc main_arg2) : FVec Ideal S4096x11008 .f32) bitsLt_bf16_f32 := by
  after_results
theorem before_v3 : (StableHlo.after hostOps0 X (Proc.devRef .tc main_v3) : FVec Ideal S4096x11008 .bf16)
    = truncf (F := Ideal) .bf16 (X (Proc.devRef .tc main_arg3) : FVec Ideal S4096x11008 .f32) bitsLt_bf16_f32 := by
  after_results
theorem before_v4 : (StableHlo.after hostOps0 X (Proc.devRef .tc main_v4) : FVec Ideal S11008x4096 .bf16)
    = truncf (F := Ideal) .bf16 (X (Proc.devRef .tc main_arg4) : FVec Ideal S11008x4096 .f32) bitsLt_bf16_f32 := by
  after_results
theorem before_v5 : (StableHlo.after hostOps0 X (Proc.devRef .tc main_v5) : FVec Ideal S4096x11008 .bf16)
    = truncf (F := Ideal) .bf16 (X (Proc.devRef .tc main_arg5) : FVec Ideal S4096x11008 .f32) bitsLt_bf16_f32 := by
  after_results
theorem before_v6 : (StableHlo.after hostOps0 X (Proc.devRef .tc main_v6) : FVec Ideal S4096x11008 .bf16)
    = truncf (F := Ideal) .bf16 (X (Proc.devRef .tc main_arg6) : FVec Ideal S4096x11008 .f32) bitsLt_bf16_f32 := by
  after_results
theorem before_v7 : (StableHlo.after hostOps0 X (Proc.devRef .tc main_v7) : FVec Ideal S11008x4096 .bf16)
    = truncf (F := Ideal) .bf16 (X (Proc.devRef .tc main_arg7) : FVec Ideal S11008x4096 .f32) bitsLt_bf16_f32 := by
  after_results
theorem before_arg1 : StableHlo.after hostOps0 X (Proc.devRef .tc main_arg1) = X (Proc.devRef .tc main_arg1) := by
  after_results

theorem between_v9 : StableHlo.after hostOps1 X (Proc.devRef .tc main_v9)
    = shapeCast S2x2048x4096 (X (Proc.devRef .tc main_v8)) shapeCasts_S4096x4096_S2x2048x4096 := by
  after_results; rfl
theorem between_v1 : StableHlo.after hostOps1 X (Proc.devRef .tc main_v1) = X (Proc.devRef .tc main_v1) := by after_results
theorem between_v5 : StableHlo.after hostOps1 X (Proc.devRef .tc main_v5) = X (Proc.devRef .tc main_v5) := by after_results
theorem between_v6 : StableHlo.after hostOps1 X (Proc.devRef .tc main_v6) = X (Proc.devRef .tc main_v6) := by after_results
theorem between_v7 : StableHlo.after hostOps1 X (Proc.devRef .tc main_v7) = X (Proc.devRef .tc main_v7) := by after_results
theorem between_arg1 : StableHlo.after hostOps1 X (Proc.devRef .tc main_arg1) = X (Proc.devRef .tc main_arg1) := by after_results

theorem tail_result : StableHlo.after hostOps2_1 (StableHlo.after hostOps2 X) (Proc.devRef .tc main_v21)
    = select (mask (X (Proc.devRef .tc main_arg1))) (X (Proc.devRef .tc main_v9))
        (shapeCast S2x2048x4096 (X (Proc.devRef .tc main_v10)) shapeCasts_S4096x4096_S2x2048x4096) := by
  after_results; rfl

end Stretches

/-! ## Row-major re-indexing -/

/-- A 4096 x 4096 array of token rows reshaped to 2 x 2048 x 4096 reads entry (b, l, d) at row 2048 b + l. -/
theorem unflatten (L : S4096x4096.Idx → EReal) :
    shapeCast S2x2048x4096 L shapeCasts_S4096x4096_S2x2048x4096
      = Swiglu.perToken fun n d => L (ix2 n d) := by
  funext i
  obtain ⟨b, l, d, rfl⟩ : ∃ (b : Fin 2) (l : Fin 2048) (d : Fin 4096), i = ix3 b l d := ⟨i 0, i 1, i 2, eq_ix3 i⟩
  have hb : b.val < 2 := b.isLt
  have hl : l.val < 2048 := l.isLt
  refine shapeCast_apply L shapeCasts_S4096x4096_S2x2048x4096 (ix3 b l d) (ix2 ⟨2048 * b.val + l.val, by omega⟩ d) ?_
  rw [Shape.rowMajor_val_two, Shape.rowMajor_val_three]
  show (2048 * b.val + l.val) * 4096 + d.val = (b.val * 2048 + l.val) * 4096 + d.val
  omega

/-- The activations reshaped to 4096 rows: row n is token (n / 2048, n % 2048). -/
theorem flatten (x : S2x2048x4096.Idx → EReal) (n k : Fin 4096) :
    shapeCast S4096x4096 x shapeCasts_S2x2048x4096_S4096x4096 (ix2 n k) = Swiglu.tokens x n k := by
  have hn : n.val < 4096 := n.isLt
  refine shapeCast_apply x shapeCasts_S2x2048x4096_S4096x4096 (ix2 n k) _ ?_
  rw [Shape.rowMajor_val_two, Shape.rowMajor_val_three]
  show (n.val / 2048 * 2048 + n.val % 2048) * 4096 + k.val = n.val * 4096 + k.val
  omega

/-! ## The result -/

variable (m : (ℓ : Loc nD τ sig) → Buf (Elt Ideal) ℓ) (ρ : Dev nD → PrngReg)

/-- What launch A reads: the token rows and the vision weights. -/
theorem rowsA (c : Dev nD) : LaunchA.rows (V1 m ρ) c = Swiglu.tokens (m ((c : Thread nD τ).loc main_arg0)) := by
  funext n k
  show V1 m ρ c main_v1 (ix2 n k) = _
  rw [show V1 m ρ c main_v1 = _ from before_rows (W0 m ρ c)]
  exact flatten _ n k
theorem gateA (c : Dev nD) : LaunchA.gateW (V1 m ρ) c = Swiglu.mat (m ((c : Thread nD τ).loc main_arg2)) := by
  funext k f
  show V1 m ρ c main_v2 (ix2 k f) = _
  rw [show V1 m ρ c main_v2 = _ from before_v2 (W0 m ρ c)]
  rfl
theorem upA (c : Dev nD) : LaunchA.upW (V1 m ρ) c = Swiglu.mat (m ((c : Thread nD τ).loc main_arg3)) := by
  funext k f
  show V1 m ρ c main_v3 (ix2 k f) = _
  rw [show V1 m ρ c main_v3 = _ from before_v3 (W0 m ρ c)]
  rfl
theorem downA (c : Dev nD) : LaunchA.downW (V1 m ρ) c = Swiglu.mat (m ((c : Thread nD τ).loc main_arg4)) := by
  funext f d
  show V1 m ρ c main_v4 (ix2 f d) = _
  rw [show V1 m ρ c main_v4 = _ from before_v4 (W0 m ρ c)]
  rfl

/-- Launch B finds the token rows as launch A found them (an input array is written back unchanged), and the language
    weights as the first stretch left them. -/
theorem enterB_rows (c : Dev nD) : V3 m ρ c main_v1 = V1 m ρ c main_v1 :=
  (between_v1 (W2 m ρ c)).trans ((W2_arr m ρ c 0).trans (((dat0 (V1 m ρ) c).arrAt_in 0 rfl _).trans (A_eq0 (V1 m ρ) c 0)))
theorem enterB_v5 (c : Dev nD) : V3 m ρ c main_v5 = V1 m ρ c main_v5 :=
  (between_v5 (W2 m ρ c)).trans (W2_of_ne m ρ c main_v5 (by decide))
theorem enterB_v6 (c : Dev nD) : V3 m ρ c main_v6 = V1 m ρ c main_v6 :=
  (between_v6 (W2 m ρ c)).trans (W2_of_ne m ρ c main_v6 (by decide))
theorem enterB_v7 (c : Dev nD) : V3 m ρ c main_v7 = V1 m ρ c main_v7 :=
  (between_v7 (W2 m ρ c)).trans (W2_of_ne m ρ c main_v7 (by decide))

theorem rowsB (c : Dev nD) : LaunchB.rows (V3 m ρ) c = Swiglu.tokens (m ((c : Thread nD τ).loc main_arg0)) := by
  funext n k
  show V3 m ρ c main_v1 (ix2 n k) = _
  rw [enterB_rows, show V1 m ρ c main_v1 = _ from before_rows (W0 m ρ c)]
  exact flatten _ n k
theorem gateB (c : Dev nD) : LaunchB.gateW (V3 m ρ) c = Swiglu.mat (m ((c : Thread nD τ).loc main_arg5)) := by
  funext k f
  show V3 m ρ c main_v5 (ix2 k f) = _
  rw [enterB_v5, show V1 m ρ c main_v5 = _ from before_v5 (W0 m ρ c)]
  rfl
theorem upB (c : Dev nD) : LaunchB.upW (V3 m ρ) c = Swiglu.mat (m ((c : Thread nD τ).loc main_arg6)) := by
  funext k f
  show V3 m ρ c main_v6 (ix2 k f) = _
  rw [enterB_v6, show V1 m ρ c main_v6 = _ from before_v6 (W0 m ρ c)]
  rfl
theorem downB (c : Dev nD) : LaunchB.downW (V3 m ρ) c = Swiglu.mat (m ((c : Thread nD τ).loc main_arg7)) := by
  funext f d
  show V3 m ρ c main_v7 (ix2 f d) = _
  rw [enterB_v7, show V1 m ρ c main_v7 = _ from before_v7 (W0 m ρ c)]
  rfl

/-- The token types reach the last stretch as launched. -/
theorem types_kept (c : Dev nD) : W4 m ρ c (Proc.devRef .tc main_arg1) = m ((c : Thread nD τ).loc main_arg1) :=
  (W4_of_ne m ρ c main_arg1 (by decide)).trans ((between_arg1 (W2 m ρ c)).trans
    ((W2_of_ne m ρ c main_arg1 (by decide)).trans (before_arg1 (W0 m ρ c))))

/-- Launch A's output, reshaped, as the last stretch finds it. -/
theorem outA (c : Dev nD) : W4 m ρ c (Proc.devRef .tc main_v9)
    = Swiglu.perToken (Swiglu.layer (Swiglu.tokens (m ((c : Thread nD τ).loc main_arg0))) (Swiglu.mat (m ((c : Thread nD τ).loc main_arg2)))
        (Swiglu.mat (m ((c : Thread nD τ).loc main_arg3))) (Swiglu.mat (m ((c : Thread nD τ).loc main_arg4)))) := by
  refine (W4_of_ne m ρ c main_v9 (by decide)).trans ((between_v9 (W2 m ρ c)).trans ?_)
  rw [show W2 m ρ c (Proc.devRef .tc main_v8) = LaunchA.result (V1 m ρ) c from (W2_arr m ρ c 4).trans (LaunchA.final (V1 m ρ) c), unflatten]
  unfold LaunchA.result
  rw [rowsA, gateA, upA, downA]
  rfl

/-- Launch B's output as the last stretch finds it. -/
theorem outB (c : Dev nD) : shapeCast S2x2048x4096 (W4 m ρ c (Proc.devRef .tc main_v10)) shapeCasts_S4096x4096_S2x2048x4096
    = Swiglu.perToken (Swiglu.layer (Swiglu.tokens (m ((c : Thread nD τ).loc main_arg0))) (Swiglu.mat (m ((c : Thread nD τ).loc main_arg5)))
        (Swiglu.mat (m ((c : Thread nD τ).loc main_arg6))) (Swiglu.mat (m ((c : Thread nD τ).loc main_arg7)))) := by
  rw [show W4 m ρ c (Proc.devRef .tc main_v10) = LaunchB.result (V3 m ρ) c from (W4_arr m ρ c 4).trans (LaunchB.final (V3 m ρ) c), unflatten]
  unfold LaunchB.result
  rw [rowsB, gateB, upB, downB]
  rfl

/-- The result buffer's final contents. -/
theorem result_contents (c : Dev nD) : W6 m ρ c (Proc.devRef .tc main_v21)
    = select (mask (m ((c : Thread nD τ).loc main_arg1)))
        (Swiglu.perToken (Swiglu.layer (Swiglu.tokens (m ((c : Thread nD τ).loc main_arg0))) (Swiglu.mat (m ((c : Thread nD τ).loc main_arg2)))
          (Swiglu.mat (m ((c : Thread nD τ).loc main_arg3))) (Swiglu.mat (m ((c : Thread nD τ).loc main_arg4)))))
        (Swiglu.perToken (Swiglu.layer (Swiglu.tokens (m ((c : Thread nD τ).loc main_arg0))) (Swiglu.mat (m ((c : Thread nD τ).loc main_arg5)))
          (Swiglu.mat (m ((c : Thread nD τ).loc main_arg6))) (Swiglu.mat (m ((c : Thread nD τ).loc main_arg7))))) := by
  refine (tail_result (W4 m ρ c)).trans ?_
  rw [types_kept, outA, outB]

end Cert.KernelIdeal.Whole

end
-- ==== Proof.RefSide.lean ====
/-
  The reference program's two branches, read entry by entry.

  Each branch is: project every token on the gate and up weights (a contraction over the 4096 features), multiply the
  gate projection by `1 / (1 + exp (-g))` of itself and by the up projection, and contract the 11008 hidden units with
  the down weights. Over the extended reals `1 / (1 + exp (-g))` is the logistic function by its definition, so each
  branch's output at token (b, l) and feature d is the layer's entry (2048 b + l, d).
-/
import proofs.«168073_j29162827940530_1_alg».proof.Proof.Gen.ReferenceIdeal.Read
import proofs.«168073_j29162827940530_1_alg».proof.Proof.Swiglu
import Idealize.ShloMosaic.Lib.IdealHost

noncomputable section

namespace Cert.ReferenceIdeal.Branches

open Cert.ReferenceIdeal Cert.ReferenceIdeal.Gen Cert.ReferenceIdeal.Read Idealize.ShloMosaic Idealize.ShloMosaic.ValueIdx

/-! ## The vision branch -/

/-- The gate projection of token `(b, l)`. -/
theorem vision_gate (x0 : (⟨S2x2048x4096, .f32⟩ : BufTy).Contents (Elt Ideal)) (w : (⟨S4096x11008, .f32⟩ : BufTy).Contents (Elt Ideal))
    (b : Fin 2) (l : Fin 2048) (f : Fin 11008) (n : Fin 4096) (hn : n.val = 2048 * b.val + l.val) :
    val_main_v8 (F := Ideal) x0 w (ix3 b l f) = Swiglu.proj (Swiglu.tokens x0) (Swiglu.mat w) n f := by
  rw [val_main_v8_apply]
  unfold Swiglu.proj
  refine Finset.sum_congr rfl fun k _ => ?_
  have hb : b.val < 2 := b.isLt
  have hl : l.val < 2048 := l.isLt
  have e1 : x0 (lidx_main_v8 (ix3 b l f) k) = Swiglu.tokens x0 n k := by
    unfold Swiglu.tokens
    refine congrArg x0 (funext fun a => Fin.ext ?_)
    match a with
    | ⟨0, _⟩ => show b.val = n.val / 2048; omega
    | ⟨1, _⟩ => show l.val = n.val % 2048; omega
    | ⟨2, _⟩ => rfl
  have e2 : w (ridx_main_v8 (ix3 b l f) k) = Swiglu.mat w k f := by
    unfold Swiglu.mat
    refine congrArg w (funext fun a => Fin.ext ?_)
    match a with
    | ⟨0, _⟩ => rfl
    | ⟨1, _⟩ => rfl
  rw [e1, e2]

/-- The up projection of token `(b, l)`. -/
theorem vision_up (x0 : (⟨S2x2048x4096, .f32⟩ : BufTy).Contents (Elt Ideal)) (w : (⟨S4096x11008, .f32⟩ : BufTy).Contents (Elt Ideal))
    (b : Fin 2) (l : Fin 2048) (f : Fin 11008) (n : Fin 4096) (hn : n.val = 2048 * b.val + l.val) :
    val_main_v10 (F := Ideal) x0 w (ix3 b l f) = Swiglu.proj (Swiglu.tokens x0) (Swiglu.mat w) n f := by
  rw [val_main_v10_apply]
  unfold Swiglu.proj
  refine Finset.sum_congr rfl fun k _ => ?_
  have hb : b.val < 2 := b.isLt
  have hl : l.val < 2048 := l.isLt
  have e1 : x0 (lidx_main_v10 (ix3 b l f) k) = Swiglu.tokens x0 n k := by
    unfold Swiglu.tokens
    refine congrArg x0 (funext fun a => Fin.ext ?_)
    match a with
    | ⟨0, _⟩ => show b.val = n.val / 2048; omega
    | ⟨1, _⟩ => show l.val = n.val % 2048; omega
    | ⟨2, _⟩ => rfl
  have e2 : w (ridx_main_v10 (ix3 b l f) k) = Swiglu.mat w k f := by
    unfold Swiglu.mat
    refine congrArg w (funext fun a => Fin.ext ?_)
    match a with
    | ⟨0, _⟩ => rfl
    | ⟨1, _⟩ => rfl
  rw [e1, e2]

/-- The gated hidden unit of token `(b, l)`: the host's `g * (1 / (1 + exp (-g)))` is `g * logistic g`. -/
theorem vision_hidden (x0 : (⟨S2x2048x4096, .f32⟩ : BufTy).Contents (Elt Ideal)) (wg wu : (⟨S4096x11008, .f32⟩ : BufTy).Contents (Elt Ideal))
    (b : Fin 2) (l : Fin 2048) (f : Fin 11008) (n : Fin 4096) (hn : n.val = 2048 * b.val + l.val) :
    val_main_v11 (F := Ideal) x0 wg wu (ix3 b l f) = Swiglu.hidden (Swiglu.tokens x0) (Swiglu.mat wg) (Swiglu.mat wu) n f := by
  rw [val_main_v11_apply, val_main_v9_apply, val_main_call0_v5_apply, val_main_call0_v4_apply, val_main_call0_cst_0_apply,
    val_main_call0_v3_apply, val_main_call0_v2_apply, val_main_call0_cst_apply, val_main_call0_v1_apply, val_main_call0_v0_apply,
    vision_gate x0 wg b l f n hn, vision_up x0 wu b l f n hn]
  simp only [Ideal.mulf_def, Ideal.hostDivf_def, Ideal.addf_def, Ideal.hostUnary_exp_def, Ideal.hostNegf_def, Ideal.negf_def,
    Ideal.ofBits_def, Ideal.ofBits_one_f32]
  rfl

/-- The branch's output is the layer's, token by token. -/
theorem vision_out (x0 : (⟨S2x2048x4096, .f32⟩ : BufTy).Contents (Elt Ideal)) (wg wu : (⟨S4096x11008, .f32⟩ : BufTy).Contents (Elt Ideal))
    (wd : (⟨S11008x4096, .f32⟩ : BufTy).Contents (Elt Ideal)) :
    val_main_v12 (F := Ideal) x0 wg wu wd
      = Swiglu.perToken (Swiglu.layer (Swiglu.tokens x0) (Swiglu.mat wg) (Swiglu.mat wu) (Swiglu.mat wd)) := by
  funext i
  obtain ⟨b, l, d, rfl⟩ : ∃ (b : Fin 2) (l : Fin 2048) (d : Fin 4096), i = ix3 b l d := ⟨i 0, i 1, i 2, eq_ix3 i⟩
  rw [val_main_v12_apply]
  show _ = Swiglu.layer (Swiglu.tokens x0) (Swiglu.mat wg) (Swiglu.mat wu) (Swiglu.mat wd) ⟨2048 * b.val + l.val, _⟩ d
  unfold Swiglu.layer
  refine Finset.sum_congr rfl fun f _ => ?_
  have e1 : lidx_main_v12 (ix3 b l d) f = ix3 b l f := funext fun a => Fin.ext (by
    match a with
    | ⟨0, _⟩ => rfl
    | ⟨1, _⟩ => rfl
    | ⟨2, _⟩ => rfl)
  have e2 : wd (ridx_main_v12 (ix3 b l d) f) = Swiglu.mat wd f d := by
    unfold Swiglu.mat
    refine congrArg wd (funext fun a => Fin.ext ?_)
    match a with
    | ⟨0, _⟩ => rfl
    | ⟨1, _⟩ => rfl
  rw [e1, e2, vision_hidden x0 wg wu b l f ⟨2048 * b.val + l.val, by have := b.isLt; have := l.isLt; omega⟩ rfl]

/-! ## The language branch -/

/-- The gate projection of token `(b, l)`. -/
theorem language_gate (x0 : (⟨S2x2048x4096, .f32⟩ : BufTy).Contents (Elt Ideal)) (w : (⟨S4096x11008, .f32⟩ : BufTy).Contents (Elt Ideal))
    (b : Fin 2) (l : Fin 2048) (f : Fin 11008) (n : Fin 4096) (hn : n.val = 2048 * b.val + l.val) :
    val_main_v13 (F := Ideal) x0 w (ix3 b l f) = Swiglu.proj (Swiglu.tokens x0) (Swiglu.mat w) n f := by
  rw [val_main_v13_apply]
  unfold Swiglu.proj
  refine Finset.sum_congr rfl fun k _ => ?_
  have hb : b.val < 2 := b.isLt
  have hl : l.val < 2048 := l.isLt
  have e1 : x0 (lidx_main_v13 (ix3 b l f) k) = Swiglu.tokens x0 n k := by
    unfold Swiglu.tokens
    refine congrArg x0 (funext fun a => Fin.ext ?_)
    match a with
    | ⟨0, _⟩ => show b.val = n.val / 2048; omega
    | ⟨1, _⟩ => show l.val = n.val % 2048; omega
    | ⟨2, _⟩ => rfl
  have e2 : w (ridx_main_v13 (ix3 b l f) k) = Swiglu.mat w k f := by
    unfold Swiglu.mat
    refine congrArg w (funext fun a => Fin.ext ?_)
    match a with
    | ⟨0, _⟩ => rfl
    | ⟨1, _⟩ => rfl
  rw [e1, e2]

/-- The up projection of token `(b, l)`. -/
theorem language_up (x0 : (⟨S2x2048x4096, .f32⟩ : BufTy).Contents (Elt Ideal)) (w : (⟨S4096x11008, .f32⟩ : BufTy).Contents (Elt Ideal))
    (b : Fin 2) (l : Fin 2048) (f : Fin 11008) (n : Fin 4096) (hn : n.val = 2048 * b.val + l.val) :
    val_main_v15 (F := Ideal) x0 w (ix3 b l f) = Swiglu.proj (Swiglu.tokens x0) (Swiglu.mat w) n f := by
  rw [val_main_v15_apply]
  unfold Swiglu.proj
  refine Finset.sum_congr rfl fun k _ => ?_
  have hb : b.val < 2 := b.isLt
  have hl : l.val < 2048 := l.isLt
  have e1 : x0 (lidx_main_v15 (ix3 b l f) k) = Swiglu.tokens x0 n k := by
    unfold Swiglu.tokens
    refine congrArg x0 (funext fun a => Fin.ext ?_)
    match a with
    | ⟨0, _⟩ => show b.val = n.val / 2048; omega
    | ⟨1, _⟩ => show l.val = n.val % 2048; omega
    | ⟨2, _⟩ => rfl
  have e2 : w (ridx_main_v15 (ix3 b l f) k) = Swiglu.mat w k f := by
    unfold Swiglu.mat
    refine congrArg w (funext fun a => Fin.ext ?_)
    match a with
    | ⟨0, _⟩ => rfl
    | ⟨1, _⟩ => rfl
  rw [e1, e2]

/-- The gated hidden unit of token `(b, l)`: the host's `g * (1 / (1 + exp (-g)))` is `g * logistic g`. -/
theorem language_hidden (x0 : (⟨S2x2048x4096, .f32⟩ : BufTy).Contents (Elt Ideal)) (wg wu : (⟨S4096x11008, .f32⟩ : BufTy).Contents (Elt Ideal))
    (b : Fin 2) (l : Fin 2048) (f : Fin 11008) (n : Fin 4096) (hn : n.val = 2048 * b.val + l.val) :
    val_main_v16 (F := Ideal) x0 wg wu (ix3 b l f) = Swiglu.hidden (Swiglu.tokens x0) (Swiglu.mat wg) (Swiglu.mat wu) n f := by
  rw [val_main_v16_apply, val_main_v14_apply, val_main_call1_v5_apply, val_main_call1_v4_apply, val_main_call1_cst_0_apply,
    val_main_call1_v3_apply, val_main_call1_v2_apply, val_main_call1_cst_apply, val_main_call1_v1_apply, val_main_call1_v0_apply,
    language_gate x0 wg b l f n hn, language_up x0 wu b l f n hn]
  simp only [Ideal.mulf_def, Ideal.hostDivf_def, Ideal.addf_def, Ideal.hostUnary_exp_def, Ideal.hostNegf_def, Ideal.negf_def,
    Ideal.ofBits_def, Ideal.ofBits_one_f32]
  rfl

/-- The branch's output is the layer's, token by token. -/
theorem language_out (x0 : (⟨S2x2048x4096, .f32⟩ : BufTy).Contents (Elt Ideal)) (wg wu : (⟨S4096x11008, .f32⟩ : BufTy).Contents (Elt Ideal))
    (wd : (⟨S11008x4096, .f32⟩ : BufTy).Contents (Elt Ideal)) :
    val_main_v17 (F := Ideal) x0 wg wu wd
      = Swiglu.perToken (Swiglu.layer (Swiglu.tokens x0) (Swiglu.mat wg) (Swiglu.mat wu) (Swiglu.mat wd)) := by
  funext i
  obtain ⟨b, l, d, rfl⟩ : ∃ (b : Fin 2) (l : Fin 2048) (d : Fin 4096), i = ix3 b l d := ⟨i 0, i 1, i 2, eq_ix3 i⟩
  rw [val_main_v17_apply]
  show _ = Swiglu.layer (Swiglu.tokens x0) (Swiglu.mat wg) (Swiglu.mat wu) (Swiglu.mat wd) ⟨2048 * b.val + l.val, _⟩ d
  unfold Swiglu.layer
  refine Finset.sum_congr rfl fun f _ => ?_
  have e1 : lidx_main_v17 (ix3 b l d) f = ix3 b l f := funext fun a => Fin.ext (by
    match a with
    | ⟨0, _⟩ => rfl
    | ⟨1, _⟩ => rfl
    | ⟨2, _⟩ => rfl)
  have e2 : wd (ridx_main_v17 (ix3 b l d) f) = Swiglu.mat wd f d := by
    unfold Swiglu.mat
    refine congrArg wd (funext fun a => Fin.ext ?_)
    match a with
    | ⟨0, _⟩ => rfl
    | ⟨1, _⟩ => rfl
  rw [e1, e2, language_hidden x0 wg wu b l f ⟨2048 * b.val + l.val, by have := b.isLt; have := l.isLt; omega⟩ rfl]

end Cert.ReferenceIdeal.Branches

end
-- ==== Proof.lean ====
/-
  A mixture of two gated feed-forward layers, selected per token: the kernel program against its reference.

  Both programs compute, for activations x (2 x 2048 x 4096, token (b, l) being row 2048 b + l of a 4096 x 4096
  matrix X), token types, and two sets of weights (gate, up: 4096 x 11008; down: 11008 x 4096):
      layer n d = sum over the 11008 hidden units f of ((g * logistic g) * u) * down f d,
      g = sum over k of X n k * gate k f,  u = sum over k of X n k * up k f,
  once with the vision weights and once with the language weights, and return at token (b, l) the vision layer's row
  where tokens l and l + 1 of batch b both have type 1 (never at a batch's last token), the language layer's elsewhere.
  The reference contracts all 11008 hidden units at once and writes the logistic function as 1 / (1 + exp (-g)), which
  is its definition over the extended reals. The kernel converts its operands to a narrower float format (the identity
  over the extended reals), works on 8 row tiles of 512 tokens and 43 tiles of 256 hidden units, and accumulates the
  43 partial contractions of a row tile into the output tile, starting from zero: the same sum, regrouped, and
  addition of extended reals is commutative and associative, so nothing needs to be finite. The masks are the same
  operations of the token types in both programs.
  The three frames: the kernel programs' are the generated frame certificates; the reference's is its run with the
  result dropped. The idealization rewrote nothing.
-/
import proofs.«168073_j29162827940530_1_alg».proof.Defs
import proofs.«168073_j29162827940530_1_alg».proof.Proof.Gen.Kernel
import proofs.«168073_j29162827940530_1_alg».proof.Proof.Gen.Kernel.Frame
import proofs.«168073_j29162827940530_1_alg».proof.Proof.Gen.KernelIdeal
import proofs.«168073_j29162827940530_1_alg».proof.Proof.Gen.KernelIdeal.Frame
import proofs.«168073_j29162827940530_1_alg».proof.Proof.Gen.ReferenceIdeal
import proofs.«168073_j29162827940530_1_alg».proof.Proof.Gen.ReferenceIdeal.Run
import proofs.«168073_j29162827940530_1_alg».proof.Proof.Gen.ReferenceIdeal.Read
import proofs.«168073_j29162827940530_1_alg».proof.Proof.Gen.Pre_finite_inputs
import proofs.«168073_j29162827940530_1_alg».proof.Proof.Between
import proofs.«168073_j29162827940530_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs compute the token mask by the same operations. -/
theorem mask_eq (x1 : (⟨Cert.KernelIdeal.S2x2048, .i32⟩ : BufTy).Contents (Elt Ideal)) :
    Cert.KernelIdeal.Whole.mask x1 = Cert.ReferenceIdeal.Read.val_main_call2_v0 (F := Ideal) x1 := rfl

/-- The reference's result: the mask selecting between the two layers' outputs. -/
theorem reference_result (x0 : (⟨Cert.ReferenceIdeal.S2x2048x4096, .f32⟩ : BufTy).Contents (Elt Ideal))
    (x1 : (⟨Cert.ReferenceIdeal.S2x2048, .i32⟩ : BufTy).Contents (Elt Ideal))
    (x2 x3 : (⟨Cert.ReferenceIdeal.S4096x11008, .f32⟩ : BufTy).Contents (Elt Ideal))
    (x4 : (⟨Cert.ReferenceIdeal.S11008x4096, .f32⟩ : BufTy).Contents (Elt Ideal))
    (x5 x6 : (⟨Cert.ReferenceIdeal.S4096x11008, .f32⟩ : BufTy).Contents (Elt Ideal))
    (x7 : (⟨Cert.ReferenceIdeal.S11008x4096, .f32⟩ : BufTy).Contents (Elt Ideal)) :
    Cert.ReferenceIdeal.Read.val_main_v19 (F := Ideal) x0 x1 x2 x3 x4 x5 x6 x7
      = select (Cert.KernelIdeal.Whole.mask x1)
          (Cert.Swiglu.perToken (Cert.Swiglu.layer (Cert.Swiglu.tokens x0) (Cert.Swiglu.mat x2) (Cert.Swiglu.mat x3) (Cert.Swiglu.mat x4)))
          (Cert.Swiglu.perToken (Cert.Swiglu.layer (Cert.Swiglu.tokens x0) (Cert.Swiglu.mat x5) (Cert.Swiglu.mat x6) (Cert.Swiglu.mat x7))) := by
  unfold Cert.ReferenceIdeal.Read.val_main_v19
  rw [Cert.ReferenceIdeal.Branches.vision_out, Cert.ReferenceIdeal.Branches.language_out, mask_eq]

/-- Run from memories agreeing on the arguments, both idealized programs end with the same result: the mask selecting,
    per token, between the vision and the language layer's outputs. -/
theorem algebraic : Cert.algebraic_KernelIdeal_ReferenceIdeal := by
  intro m ρ m' ρ' _ hagree
  refine ⟨fun c => select (Cert.KernelIdeal.Whole.mask (m ((c.tc : Thread Cert.KernelIdeal.nD Cert.KernelIdeal.τ).loc Cert.KernelIdeal.main_arg1)))
      (Cert.Swiglu.perToken (Cert.Swiglu.layer (Cert.Swiglu.tokens (m ((c.tc : Thread Cert.KernelIdeal.nD Cert.KernelIdeal.τ).loc Cert.KernelIdeal.main_arg0))) (Cert.Swiglu.mat (m ((c.tc : Thread Cert.KernelIdeal.nD Cert.KernelIdeal.τ).loc Cert.KernelIdeal.main_arg2))) (Cert.Swiglu.mat (m ((c.tc : Thread Cert.KernelIdeal.nD Cert.KernelIdeal.τ).loc Cert.KernelIdeal.main_arg3))) (Cert.Swiglu.mat (m ((c.tc : Thread Cert.KernelIdeal.nD Cert.KernelIdeal.τ).loc Cert.KernelIdeal.main_arg4)))))
      (Cert.Swiglu.perToken (Cert.Swiglu.layer (Cert.Swiglu.tokens (m ((c.tc : Thread Cert.KernelIdeal.nD Cert.KernelIdeal.τ).loc Cert.KernelIdeal.main_arg0))) (Cert.Swiglu.mat (m ((c.tc : Thread Cert.KernelIdeal.nD Cert.KernelIdeal.τ).loc Cert.KernelIdeal.main_arg5))) (Cert.Swiglu.mat (m ((c.tc : Thread Cert.KernelIdeal.nD Cert.KernelIdeal.τ).loc Cert.KernelIdeal.main_arg6))) (Cert.Swiglu.mat (m ((c.tc : Thread Cert.KernelIdeal.nD Cert.KernelIdeal.τ).loc Cert.KernelIdeal.main_arg7))))), ?_, ?_⟩
  · exact (θ_run Cert.KernelIdeal.defs _ _).mono
      (fun _ h c => ⟨(h c).1.trans (Cert.KernelIdeal.Whole.result_contents m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, reference_result, (hagree c).1, (hagree c).2.1, (hagree c).2.2.1,
      (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
